-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x32 : Shape := ⟨2, ![1600000, 32]⟩
abbrev S1600000 : Shape := ⟨1, ![1600000]⟩
abbrev S50000x32 : Shape := ⟨2, ![50000, 32]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S1600000x32 : S_.BroadcastsInDim S1600000x32 (![] : Fin 0 → Fin S1600000x32.rank)
  reducesTo_S1600000x32_S_d0_1 : S1600000x32.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x32 .f32) (main_arg9 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_v33

def fn {F : FTy → Type} [FloatOps F] (main_arg0 : FVec F S1600000x32 .f32) (main_arg1 : IVec S1600000 32) (main_arg2 : IVec S1600000 32) (main_arg3 : FVec F S50000x32 .f32) (main_arg4 : FVec F S96x64 .f32) (main_arg5 : FVec F S64 .f32) (main_arg6 : FVec F S64x64 .f32) (main_arg7 : FVec F S64 .f32) (main_arg8 : FVec F S64x32 .f32) (main_arg9 : FVec F S32 .f32) : IVec S_ 1 :=
  let main_v0 : FVec F S1600000x32 .f32 := Host.absf main_arg0
  let main_cst : FVec F S_ .f32 := constant S_ .f32 0x7F800000#32
  let main_v1 : FVec F S1600000x32 .f32 := broadcastInDim S1600000x32 ![] bcast_S_S1600000x32 main_cst
  let main_v2 : IVec S1600000x32 1 := cmpf .olt main_v0 main_v1
  let main_c : IVec S_ 1 := constantI S_ 1 1#1
  let main_v3 : IVec S_ 1 := (fun x v => Host.reduce IntOp.andi x v reducesTo_S1600000x32_S_d0_1 h_S_) main_v2 main_c
  let main_v4 : FVec F S50000x32 .f32 := Host.absf main_arg3
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S96x64 .f32 := Host.absf main_arg4
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S1600000x32 : Shape := ⟨2, ![1600000, 32]⟩
abbrev S1600000 : Shape := ⟨1, ![1600000]⟩
abbrev S50000x32 : Shape := ⟨2, ![50000, 32]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S32x64 : Shape := ⟨2, ![32, 64]⟩
abbrev S1x64 : Shape := ⟨2, ![1, 64]⟩
abbrev S1x32 : Shape := ⟨2, ![1, 32]⟩
abbrev S5000x32 : Shape := ⟨2, ![5000, 32]⟩
abbrev S5000x64 : Shape := ⟨2, ![5000, 64]⟩

abbrev nBuf : Space → Nat
  | .hbm => 63
  | .vmem => 16
  | .smem => 0
  | _ => 0

abbrev bufTy : (tb : Table) → Fin (tcTables nBuf tb) → BufTy
  | .hbm, ⟨0, _⟩ => ⟨S1600000x32, .f32⟩
  | .hbm, ⟨1, _⟩ => ⟨S1600000, .i32⟩
  | .hbm, ⟨2, _⟩ => ⟨S1600000, .i32⟩
  | .hbm, ⟨3, _⟩ => ⟨S50000x32, .f32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x32, .f32⟩
  | .hbm, ⟨29, _⟩ => ⟨S1600000x32, .i1⟩
  | .hbm, ⟨30, _⟩ => ⟨S_, .f32⟩
  | .hbm, ⟨31, _⟩ => ⟨S1600000x32, .f32⟩
  | .hbm, ⟨32, _⟩ => ⟨S1600000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x32, .f32⟩
  | .hbm, ⟨52, _⟩ => ⟨S1600000x32, .i1⟩
  | .hbm, ⟨53, _⟩ => ⟨S_, .f32⟩
  | .hbm, ⟨54, _⟩ => ⟨S1600000x32, .f32⟩
  | .hbm, ⟨55, _⟩ => ⟨S1600000x32, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S1x64, .f32⟩
  | .hbm, ⟨60, _⟩ => ⟨S1x64, .f32⟩
  | .hbm, ⟨61, _⟩ => ⟨S1x32, .f32⟩
  | .hbm, ⟨62, _⟩ => ⟨S1600000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | _, _ => ⟨S1600000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  slices_S96x64_S32x64_0_0 : S96x64.Slices ![0, 0] S32x64
  slices_S96x64_S32x64_32_0 : S96x64.Slices ![32, 0] S32x64
  slices_S96x64_S32x64_64_0 : S96x64.Slices ![64, 0] S32x64
  shapeCasts_S64_S1x64 : S64.ShapeCasts S1x64
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  gather_S50000x32_S1600000x1_S1600000x32_1_0_n_n_0_1_132_wf : GatherDims.WF S50000x32 S1600000x1 S1600000x32 [1] [0] [] [0] [] 1 ![1, 32]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S1600000x32.size a
  hwx0_0 : ∀ i : grid0.Coords, EltTy.bits .f32 = 32 ∨ (Rect.block (s := S1600000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S1600000x32.size a
  hwx0_1 : ∀ i : grid0.Coords, EltTy.bits .f32 = 32 ∨ (Rect.block (s := S1600000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S1600000x32.size a
  hwx0_2 : ∀ i : grid0.Coords, EltTy.bits .f32 = 32 ∨ (Rect.block (s := S1600000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .f32 = 32 ∨ (Rect.block (s := S32x64) S32x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x32.size a ≤ S64x32.size a
  hwx0_9 : ∀ i : grid0.Coords, EltTy.bits .f32 = 32 ∨ (Rect.block (s := S64x32) S64x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x32.size a ≤ S1600000x32.size a
  hwx0_11 : ∀ i : grid0.Coords, EltTy.bits .f32 = 32 ∨ (Rect.block (s := S1600000x32) S5000x32.size (cc0_transform_11 i) (hinb0_11 i)).WholeWords (EltTy.packing .f32)

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S5000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1600000x32 : Shape := ⟨2, ![1600000, 32]⟩
abbrev S1600000 : Shape := ⟨1, ![1600000]⟩
abbrev S50000x32 : Shape := ⟨2, ![50000, 32]⟩
abbrev S96x64 : Shape := ⟨2, ![96, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x96 : Shape := ⟨2, ![1600000, 96]⟩
abbrev S1600000x64 : Shape := ⟨2, ![1600000, 64]⟩
abbrev S1x64 : Shape := ⟨2, ![1, 64]⟩
abbrev S1x32 : Shape := ⟨2, ![1, 32]⟩

abbrev nBuf : Space → Nat
  | .hbm => 83
  | .vmem => 0
  | .smem => 0
  | _ => 0

abbrev bufTy : (tb : Table) → Fin (tcTables nBuf tb) → BufTy
  | .hbm, ⟨0, _⟩ => ⟨S1600000x32, .f32⟩
  | .hbm, ⟨1, _⟩ => ⟨S1600000, .i32⟩
  | .hbm, ⟨2, _⟩ => ⟨S1600000, .i32⟩
  | .hbm, ⟨3, _⟩ => ⟨S50000x32, .f32⟩
  | .hbm, ⟨4, _⟩ => ⟨S96x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x32, .f32⟩
  | .hbm, ⟨29, _⟩ => ⟨S1600000x32, .i1⟩
  | .hbm, ⟨30, _⟩ => ⟨S_, .f32⟩
  | .hbm, ⟨31, _⟩ => ⟨S1600000x32, .f32⟩
  | .hbm, ⟨32, _⟩ => ⟨S1600000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1, .i32⟩
  | .hbm, ⟨42, _⟩ => ⟨S_, .i32⟩
  | .hbm, ⟨43, _⟩ => ⟨S1600000x1, .i32⟩
  | .hbm, ⟨44, _⟩ => ⟨S1600000x1, .i1⟩
  | .hbm, ⟨45, _⟩ => ⟨S1x1, .i32⟩
  | .hbm, ⟨46, _⟩ => ⟨S1600000x1, .i32⟩
  | .hbm, ⟨47, _⟩ => ⟨S1600000x1, .i1⟩
  | .hbm, ⟨48, _⟩ => ⟨S1600000x1, .i1⟩
  | .hbm, ⟨49, _⟩ => ⟨S_, .i1⟩
  | .hbm, ⟨50, _⟩ => ⟨S1600000, .i1⟩
  | .hbm, ⟨51, _⟩ => ⟨S1600000x32, .f32⟩
  | .hbm, ⟨52, _⟩ => ⟨S1600000x32, .i1⟩
  | .hbm, ⟨53, _⟩ => ⟨S_, .f32⟩
  | .hbm, ⟨54, _⟩ => ⟨S1600000x32, .f32⟩
  | .hbm, ⟨55, _⟩ => ⟨S1600000x32, .f32⟩
  | .hbm, ⟨56, _⟩ => ⟨S1600000x96, .f32⟩
  | .hbm, ⟨57, _⟩ => ⟨S1600000x64, .f32⟩
  | .hbm, ⟨58, _⟩ => ⟨S1x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S1600000x64, .f32⟩
  | .hbm, ⟨63, _⟩ => ⟨S1600000x64, .i1⟩
  | .hbm, ⟨64, _⟩ => ⟨S_, .f32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S1x64, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S1600000x64, .f32⟩
  | .hbm, ⟨74, _⟩ => ⟨S1600000x64, .i1⟩
  | .hbm, ⟨75, _⟩ => ⟨S_, .f32⟩
  | .hbm, ⟨76, _⟩ => ⟨S1600000x64, .f32⟩
  | .hbm, ⟨77, _⟩ => ⟨S1600000x64, .f32⟩
  | .hbm, ⟨78, _⟩ => ⟨S1600000x64, .f32⟩
  | .hbm, ⟨79, _⟩ => ⟨S1600000x32, .f32⟩
  | .hbm, ⟨80, _⟩ => ⟨S1x32, .f32⟩
  | .hbm, ⟨81, _⟩ => ⟨S1600000x32, .f32⟩
  | .hbm, ⟨82, _⟩ => ⟨S1600000x32, .f32⟩
  | _, _ => ⟨S1600000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_cst : Ref sig .tc := ⟨.hbm, 61, rfl⟩
abbrev main_v7 : Ref sig .tc := ⟨.hbm, 62, rfl⟩
abbrev main_v8 : Ref sig .tc := ⟨.hbm, 63, rfl⟩
abbrev main_cst_0 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_v17 : Ref sig .tc := ⟨.hbm, 74, rfl⟩
abbrev main_cst_2 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x32_0 : S1600000.BroadcastsInDim S1600000x32 (![0] : Fin 1 → Fin S1600000x32.rank)
  bcast_S_S1600000x32 : S_.BroadcastsInDim S1600000x32 (![] : Fin 0 → Fin S1600000x32.rank)
  concatenates_S1600000x32_S1600000x32_S1600000x32_S1600000x96_d1 : Shape.Concatenates [S1600000x32, S1600000x32, S1600000x32] S1600000x96 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  gather_S50000x32_S1600000x1_S1600000x32_1_0_n_n_0_1_132_wf : GatherDims.WF S50000x32 S1600000x1 S1600000x32 [1] [0] [] [0] [] 1 ![1, 32]
  dot_S1600000x96_S96x64_S1600000x64_1_0_0_1_n_n_wf : DotDims.WF S1600000x96 S96x64 S1600000x64 [1] [0] [0] [1] [] []
  dot_S1600000x64_S64x64_S1600000x64_1_0_0_1_n_n_wf : DotDims.WF S1600000x64 S64x64 S1600000x64 [1] [0] [0] [1] [] []
  dot_S1600000x64_S64x32_S1600000x32_1_0_0_1_n_n_wf : DotDims.WF S1600000x64 S64x32 S1600000x32 [1] [0] [0] [1] [] []

variable [Facts₀]

def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x32_S1600000x32_1_0_0_1_n_n : DotDims S1600000x64 S64x32 S1600000x32 where
  lhsContracting := [1]
  rhsContracting := [0]
  lhsNonContracting := [0]
  rhsNonContracting := [1]
  lhsBatch := []
  rhsBatch := []
  wf := dot_S1600000x64_S64x32_S1600000x32_1_0_0_1_n_n_wf

class Facts : Prop extends Facts₀ where

variable [Facts]
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibLeakyLayer.lean ====
/-
  A dense layer with a leaky rectifier, on the extended reals.

  For a row h of n extended reals, weights W (n by k) and a bias b (k), the layer's output at j is
      leaky (sum over q of h q * W q j  +  b j),
  where leaky v is v when v >= 0 and s * v otherwise, s the value of a given f32 word (the float nearest 1/100 for the
  usual slope). The comparison and the choice are the float operations' own, read on the extended reals, so the
  definition says nothing about which branch an infinity takes: both sides of an equivalence use the same one.

  The layer acts on each row of a matrix by itself. This file states that for the vector spelling: the matrix-unit
  product of an [a, n] block with an [n, k] weight into a zero accumulator, plus a [1, k] bias laid along the rows,
  compared with a zero splat and chosen against the slope splat times itself, read at (p, e), is the layer applied to
  row p of the block, at e.
-/
import Idealize.ShloMosaic.PureOps.Ideal.Laws
import Idealize.ShloMosaic.Lib.ValueIdx
import Idealize.ShloMosaic.Lib.Pipeline.Value
import proofs.«107505_j54090818126503_1_alg».proof.Proof.LibColsMatmul

noncomputable section

namespace Cert.LeakyLayer

open Idealize.ShloMosaic Idealize.ShloMosaic.ValueIdx Cert.ColsMatmul

/-- The leaky rectifier with slope word `s`: `v` where `v ≥ 0` holds (the ordered comparison against the zero word),
    the slope times `v` elsewhere. -/
def leaky (s : BitVec 32) (v : EReal) : EReal :=
  Scalar.select (FloatOps.cmpf (F := Ideal) (φ := .f32) .oge v (FloatOps.ofBits (F := Ideal) .f32 0x00000000#32)) v
    (FloatOps.ofBits (F := Ideal) .f32 s * v)

/-- One dense layer on a row: the row against each column of the weights, plus the bias, through the rectifier. -/
def layer {n k : ℕ} (s : BitVec 32) (W : Fin n → Fin k → EReal) (b : Fin k → EReal) (h : Fin n → EReal) : Fin k → EReal :=
  fun j => leaky s ((∑ q : Fin n, h q * W q j) + b j)

variable {a n k : ℕ}

/-- A [1, k] bias, cast to its own shape and broadcast along the rows of [a, k], reads the bias's entry e at (p, e). -/
theorem rowBias_apply (bias : (⟨2, ![1, k]⟩ : Shape).Idx → EReal)
    (hc : (⟨2, ![1, k]⟩ : Shape).ShapeCasts ⟨2, ![1, k]⟩) (hb : (⟨2, ![1, k]⟩ : Shape).Broadcasts ⟨2, ![a, k]⟩)
    (p : Fin a) (e : Fin k) :
    broadcastTo ⟨2, ![a, k]⟩ (shapeCast ⟨2, ![1, k]⟩ bias hc) hb (ix2 p e) = bias (ix2 0 e) := by
  rw [shapeCast_self]
  refine broadcastTo_apply bias hb (ix2 p e) (ix2 0 e) (fun ax => ?_)
  have he : e.val < k := e.isLt
  match ax with
  | ⟨0, _⟩ => show 0 = if (1 : ℕ) = 1 then 0 else p.val; rw [if_pos rfl]
  | ⟨1, _⟩ => show e.val = if k = 1 then 0 else e.val; split <;> omega

/-- The layer before the rectifier, as vectors: the product into the zero accumulator plus the bias along the rows. -/
def preAct (d : DotDims ⟨2, ![a, n]⟩ ⟨2, ![n, k]⟩ ⟨2, ![a, k]⟩) (x : FVec Ideal ⟨2, ![a, n]⟩ .f32) (w : FVec Ideal ⟨2, ![n, k]⟩ .f32)
    (bias : FVec Ideal ⟨2, ![1, k]⟩ .f32) (hc : (⟨2, ![1, k]⟩ : Shape).ShapeCasts ⟨2, ![1, k]⟩)
    (hb : (⟨2, ![1, k]⟩ : Shape).Broadcasts ⟨2, ![a, k]⟩) : FVec Ideal ⟨2, ![a, k]⟩ .f32 :=
  addf (matmul d none x w (constant ⟨2, ![a, k]⟩ .f32 0x00000000#32)) (broadcastTo ⟨2, ![a, k]⟩ (shapeCast ⟨2, ![1, k]⟩ bias hc) hb)

/-- The layer as vectors: the pre-activation where it is at least the zero splat, the slope splat times it elsewhere. -/
def blockLayer (s : BitVec 32) (d : DotDims ⟨2, ![a, n]⟩ ⟨2, ![n, k]⟩ ⟨2, ![a, k]⟩) (x : FVec Ideal ⟨2, ![a, n]⟩ .f32)
    (w : FVec Ideal ⟨2, ![n, k]⟩ .f32) (bias : FVec Ideal ⟨2, ![1, k]⟩ .f32) (hc : (⟨2, ![1, k]⟩ : Shape).ShapeCasts ⟨2, ![1, k]⟩)
    (hb : (⟨2, ![1, k]⟩ : Shape).Broadcasts ⟨2, ![a, k]⟩) : FVec Ideal ⟨2, ![a, k]⟩ .f32 :=
  select (cmpf .oge (preAct d x w bias hc hb) (broadcast ⟨2, ![a, k]⟩ (Scalar.ofBits .f32 0x00000000#32)))
    (preAct d x w bias hc hb)
    (mulf (broadcast ⟨2, ![a, k]⟩ (Scalar.ofBits .f32 s)) (preAct d x w bias hc hb))

variable (wf : DotDims.WF ⟨2, ![a, n]⟩ ⟨2, ![n, k]⟩ ⟨2, ![a, k]⟩ [1] [0] [0] [1] [] [])

/-- The pre-activation at (p, e): row p of the block against column e of the weights, plus the bias's entry e. -/
theorem preAct_apply (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (hc : (⟨2, ![1, k]⟩ : Shape).ShapeCasts ⟨2, ![1, k]⟩) (hb : (⟨2, ![1, k]⟩ : Shape).Broadcasts ⟨2, ![a, k]⟩)
    (p : Fin a) (e : Fin k) :
    preAct d x w bias hc hb (ix2 p e) = (∑ q : Fin n, x (ix2 p q) * w (ix2 q e)) + bias (ix2 0 e) := by
  show FloatOps.matmul d none x w (constant ⟨2, ![a, k]⟩ .f32 0x00000000#32) (ix2 p e)
      + broadcastTo ⟨2, ![a, k]⟩ (shapeCast ⟨2, ![1, k]⟩ bias hc) hb (ix2 p e) = _
  rw [cols_matmul wf d hd x w p e, rowBias_apply bias hc hb p e]

/-- The vector layer at (p, e) is the row layer of row p, at e. -/
theorem blockLayer_apply (s : BitVec 32) (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (hc : (⟨2, ![1, k]⟩ : Shape).ShapeCasts ⟨2, ![1, k]⟩) (hb : (⟨2, ![1, k]⟩ : Shape).Broadcasts ⟨2, ![a, k]⟩)
    (p : Fin a) (e : Fin k) :
    blockLayer s d x w bias hc hb (ix2 p e)
      = layer s (fun q j => w (ix2 q j)) (fun j => bias (ix2 0 j)) (fun q => x (ix2 p q)) e := by
  show Scalar.select (FloatOps.cmpf (F := Ideal) (φ := .f32) .oge (preAct d x w bias hc hb (ix2 p e)) (FloatOps.ofBits (F := Ideal) .f32 0x00000000#32))
      (preAct d x w bias hc hb (ix2 p e)) (FloatOps.ofBits (F := Ideal) .f32 s * preAct d x w bias hc hb (ix2 p e)) = _
  rw [preAct_apply wf d hd x w bias hc hb p e]
  rfl

end Cert.LeakyLayer

end
-- ==== Proof.EdgeNet.lean ====
/-
  The edge network, one edge at a time, on the extended reals.

  An edge carries three rows of 32 numbers: the features u and v of its two end atoms and its own features w. The
  network lays them end to end as one row of 96, and applies three dense layers: 96 to 64 and 64 to 64, each followed by
  the leaky rectifier whose slope is the float nearest 11/48, then 64 to 32 with no rectifier.

  The first layer can be computed in two ways. Either the row of 96 is multiplied into the 96 by 64 weights as one sum
  over 96 terms, or each of the three rows of 32 is multiplied into its own 32 rows of the weights and the three sums
  are added. These agree because a sum over 96 terms is the sum of its three stretches of 32 — associativity and
  commutativity of addition only, which hold for every extended real, infinite ones included. No finiteness is used
  anywhere in this file.
-/
import Idealize.ShloMosaic.PureOps.Ideal
import Idealize.ShloMosaic.Lib.ValueIdx
import Mathlib.Algebra.BigOperators.Fin
import proofs.«107505_j54090818126503_1_alg».proof.Proof.LibLeakyLayer

noncomputable section

namespace Cert.EdgeNet

open Idealize.ShloMosaic Idealize.ShloMosaic.ValueIdx Cert.LeakyLayer

/-- The rectifier's slope: the float nearest 11/48, as its word. -/
abbrev slopeW : BitVec 32 := 0x3E6AAAAB#32

/-- Three rows of 32 laid end to end: positions 0–31 are u, 32–63 are v, 64–95 are w. -/
def cat3 (u v w : Fin 32 → EReal) (q : Fin 96) : EReal :=
  if h : q.val < 32 then u ⟨q.val, h⟩
  else if h2 : q.val < 64 then v ⟨q.val - 32, by omega⟩
  else w ⟨q.val - 64, by have := q.isLt; omega⟩

theorem cat3_left (u v w : Fin 32 → EReal) (k : Fin 32) (h : k.val < 96) : cat3 u v w ⟨k.val, h⟩ = u k := by
  unfold cat3; rw [dif_pos k.isLt]

theorem cat3_mid (u v w : Fin 32 → EReal) (k : Fin 32) (h : 32 + k.val < 96) : cat3 u v w ⟨32 + k.val, h⟩ = v k := by
  unfold cat3
  rw [dif_neg (by show ¬ (32 + k.val < 32); omega), dif_pos (by show 32 + k.val < 64; have := k.isLt; omega)]
  exact congrArg v (Fin.ext (by show 32 + k.val - 32 = k.val; omega))

theorem cat3_right (u v w : Fin 32 → EReal) (k : Fin 32) (h : 64 + k.val < 96) : cat3 u v w ⟨64 + k.val, h⟩ = w k := by
  unfold cat3
  rw [dif_neg (by show ¬ (64 + k.val < 32); omega), dif_neg (by show ¬ (64 + k.val < 64); omega)]
  exact congrArg w (Fin.ext (by show 64 + k.val - 64 = k.val; omega))

/-- A sum over 96 positions is the sum of its three stretches of 32. -/
theorem sum_three_stretches (f : Fin 96 → EReal) :
    ∑ q : Fin 96, f q
      = ((∑ k : Fin 32, f ⟨k.val, by have := k.isLt; omega⟩) + ∑ k : Fin 32, f ⟨32 + k.val, by have := k.isLt; omega⟩)
        + ∑ k : Fin 32, f ⟨64 + k.val, by have := k.isLt; omega⟩ := by
  have h1 := Fin.sum_univ_add (a := 64) (b := 32) f
  have h2 := Fin.sum_univ_add (a := 32) (b := 32) (fun i : Fin 64 => f (Fin.castAdd 32 i))
  rw [h1, h2]
  rfl

/-- The row of 96 against one column of the weights, stretch by stretch. -/
theorem sum_cat3 (u v w : Fin 32 → EReal) (W : Fin 96 → EReal) :
    ∑ q : Fin 96, cat3 u v w q * W q
      = ((∑ k : Fin 32, u k * W ⟨k.val, by have := k.isLt; omega⟩) + ∑ k : Fin 32, v k * W ⟨32 + k.val, by have := k.isLt; omega⟩)
        + ∑ k : Fin 32, w k * W ⟨64 + k.val, by have := k.isLt; omega⟩ := by
  rw [sum_three_stretches]
  refine congrArg₂ (· + ·) (congrArg₂ (· + ·) ?_ ?_) ?_
  · exact Finset.sum_congr rfl fun k _ => by rw [cat3_left]
  · exact Finset.sum_congr rfl fun k _ => by rw [cat3_mid]
  · exact Finset.sum_congr rfl fun k _ => by rw [cat3_right]

/-- The first layer computed from the three rows separately, each against its own 32 by 64 block of weights: the three
    sums added left to right, then the bias and the rectifier. -/
def firstLayer3 (A B C : Fin 32 → Fin 64 → EReal) (b1 : Fin 64 → EReal) (u v w : Fin 32 → EReal) : Fin 64 → EReal :=
  fun e => leaky slopeW ((((∑ k : Fin 32, u k * A k e) + ∑ k : Fin 32, v k * B k e) + ∑ k : Fin 32, w k * C k e) + b1 e)

/-- Rows 0–31, 32–63 and 64–95 of a 96-row weight matrix. -/
def stretch0 (W1 : Fin 96 → Fin 64 → EReal) : Fin 32 → Fin 64 → EReal := fun k e => W1 ⟨k.val, by have := k.isLt; omega⟩ e
@[inherit_doc stretch0]
def stretch1 (W1 : Fin 96 → Fin 64 → EReal) : Fin 32 → Fin 64 → EReal := fun k e => W1 ⟨32 + k.val, by have := k.isLt; omega⟩ e
@[inherit_doc stretch0]
def stretch2 (W1 : Fin 96 → Fin 64 → EReal) : Fin 32 → Fin 64 → EReal := fun k e => W1 ⟨64 + k.val, by have := k.isLt; omega⟩ e

/-- With the three blocks the three stretches of one 96-row matrix, it is the first layer applied to the row of 96. -/
theorem firstLayer3_eq (W1 : Fin 96 → Fin 64 → EReal) (b1 : Fin 64 → EReal) (u v w : Fin 32 → EReal) :
    firstLayer3 (stretch0 W1) (stretch1 W1) (stretch2 W1) b1 u v w = layer slopeW W1 b1 (cat3 u v w) := by
  funext e
  unfold firstLayer3 layer stretch0 stretch1 stretch2
  rw [sum_cat3 u v w (fun q => W1 q e)]

/-- The network's output row for one edge. -/
def edgeRow (W1 : Fin 96 → Fin 64 → EReal) (b1 : Fin 64 → EReal) (W2 : Fin 64 → Fin 64 → EReal) (b2 : Fin 64 → EReal)
    (W3 : Fin 64 → Fin 32 → EReal) (b3 : Fin 32 → EReal) (u v w : Fin 32 → EReal) : Fin 32 → EReal :=
  fun j => (∑ k : Fin 64, layer slopeW W2 b2 (layer slopeW W1 b1 (cat3 u v w)) k * W3 k j) + b3 j

/-- The output row computed the other way: the first layer from three separate weight blocks. -/
def edgeRow3 (A B C : Fin 32 → Fin 64 → EReal) (b1 : Fin 64 → EReal) (W2 : Fin 64 → Fin 64 → EReal) (b2 : Fin 64 → EReal)
    (W3 : Fin 64 → Fin 32 → EReal) (b3 : Fin 32 → EReal) (u v w : Fin 32 → EReal) : Fin 32 → EReal :=
  fun j => (∑ k : Fin 64, layer slopeW W2 b2 (firstLayer3 A B C b1 u v w) k * W3 k j) + b3 j

/-- The two ways agree when the blocks are the three stretches of the 96-row matrix. -/
theorem edgeRow3_eq (W1 : Fin 96 → Fin 64 → EReal) (b1 : Fin 64 → EReal) (W2 : Fin 64 → Fin 64 → EReal) (b2 : Fin 64 → EReal)
    (W3 : Fin 64 → Fin 32 → EReal) (b3 : Fin 32 → EReal) (u v w : Fin 32 → EReal) :
    edgeRow3 (stretch0 W1) (stretch1 W1) (stretch2 W1) b1 W2 b2 W3 b3 u v w = edgeRow W1 b1 W2 b2 W3 b3 u v w := by
  unfold edgeRow3 edgeRow
  rw [firstLayer3_eq]

/-- The whole result: entry (r, j) is the network's output j for edge r, whose three rows are row r of the two
    gathered atom arrays and of the bond array. -/
def net (a1 a2 bd : (⟨2, ![1600000, 32]⟩ : Shape).Idx → EReal) (W1 : (⟨2, ![96, 64]⟩ : Shape).Idx → EReal)
    (b1 : (⟨1, ![64]⟩ : Shape).Idx → EReal) (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (r : Fin 1600000) (j : Fin 32) : EReal :=
  edgeRow (fun q e => W1 (ix2 q e)) (fun e => b1 (ix1 e)) (fun q e => W2 (ix2 q e)) (fun e => b2 (ix1 e))
    (fun q e => W3 (ix2 q e)) (fun e => b3 (ix1 e))
    (fun k => a1 (ix2 r k)) (fun k => a2 (ix2 r k)) (fun k => bd (ix2 r k)) j

/-- The same as one array. -/
def netArr (a1 a2 bd : (⟨2, ![1600000, 32]⟩ : Shape).Idx → EReal) (W1 : (⟨2, ![96, 64]⟩ : Shape).Idx → EReal)
    (b1 : (⟨1, ![64]⟩ : Shape).Idx → EReal) (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal) :
    (⟨2, ![1600000, 32]⟩ : Shape).Idx → EReal :=
  fun i => net a1 a2 bd W1 b1 W2 b2 W3 b3 (i 0) (i 1)

theorem netArr_apply (a1 a2 bd : (⟨2, ![1600000, 32]⟩ : Shape).Idx → EReal) (W1 : (⟨2, ![96, 64]⟩ : Shape).Idx → EReal)
    (b1 : (⟨1, ![64]⟩ : Shape).Idx → EReal) (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal) (r : Fin 1600000) (j : Fin 32) :
    netArr a1 a2 bd W1 b1 W2 b2 W3 b3 (ix2 r j) = net a1 a2 bd W1 b1 W2 b2 W3 b3 r j := rfl

end Cert.EdgeNet

end
-- ==== Proof.LibCastDense.lean ====
/-
  A dense layer whose operands are cast to a shorter float format before the product.

  On the extended reals a change of float format is the identity. So the matrix-unit product of an [a, n] block and an
  [n, k] weight, both first cast from f32 to a shorter format, into a zero f32 accumulator, plus a [1, k] bias laid along
  the rows, is at (p, e) the sum over q of x(p, q) * w(q, e), plus the bias's entry e: the casts leave no trace. The
  leaky rectifier in its vector spelling, read at an index, is the scalar rectifier of the entry there.
-/
import Idealize.ShloMosaic.PureOps.Ideal.Laws
import Idealize.ShloMosaic.Lib.ValueIdx
import Idealize.ShloMosaic.Lib.Pipeline.Value
import proofs.«107505_j54090818126503_1_alg».proof.Proof.LibLeakyLayer

noncomputable section

namespace Cert.CastDense

open Idealize.ShloMosaic Idealize.ShloMosaic.ValueIdx Cert.ColsMatmul Cert.LeakyLayer

variable {a n k : ℕ}

/-- The product of two cast operands into the zero accumulator, at (p, e): the casts are the identity. -/
theorem castMatmul_apply {ψ₁ ψ₂ : FTy} (wf : DotDims.WF ⟨2, ![a, n]⟩ ⟨2, ![n, k]⟩ ⟨2, ![a, k]⟩ [1] [0] [0] [1] [] [])
    (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32)
    (h1 : ψ₁.bits < FTy.f32.bits) (h2 : ψ₂.bits < FTy.f32.bits) (p : Fin a) (e : Fin k) :
    FloatOps.matmul d none (truncf ψ₁ x h1) (truncf ψ₂ w h2) (constant ⟨2, ![a, k]⟩ .f32 0x00000000#32) (ix2 p e)
      = ∑ q : Fin n, x (ix2 p q) * w (ix2 q e) :=
  cols_matmul wf d hd (truncf ψ₁ x h1) (truncf ψ₂ w h2) p e

/-- The same plus a [1, k] bias cast to its own shape and laid along the rows. -/
theorem castDense_apply {ψ₁ ψ₂ : FTy} (wf : DotDims.WF ⟨2, ![a, n]⟩ ⟨2, ![n, k]⟩ ⟨2, ![a, k]⟩ [1] [0] [0] [1] [] [])
    (d : DotDims ⟨2, ![a, n]⟩ ⟨2, ![n, k]⟩ ⟨2, ![a, k]⟩) (hd : d = colsDims wf)
    (x : FVec Ideal ⟨2, ![a, n]⟩ .f32) (w : FVec Ideal ⟨2, ![n, k]⟩ .f32) (bias : FVec Ideal ⟨2, ![1, k]⟩ .f32)
    (h1 : ψ₁.bits < FTy.f32.bits) (h2 : ψ₂.bits < FTy.f32.bits)
    (hc : (⟨2, ![1, k]⟩ : Shape).ShapeCasts ⟨2, ![1, k]⟩) (hb : (⟨2, ![1, k]⟩ : Shape).Broadcasts ⟨2, ![a, k]⟩)
    (p : Fin a) (e : Fin k) :
    addf (matmul d none (truncf ψ₁ x h1) (truncf ψ₂ w h2) (constant ⟨2, ![a, k]⟩ .f32 0x00000000#32))
        (broadcastTo ⟨2, ![a, k]⟩ (shapeCast ⟨2, ![1, k]⟩ bias hc) hb) (ix2 p e)
      = (∑ q : Fin n, x (ix2 p q) * w (ix2 q e)) + bias (ix2 0 e) := by
  show FloatOps.matmul d none (truncf ψ₁ x h1) (truncf ψ₂ w h2) (constant ⟨2, ![a, k]⟩ .f32 0x00000000#32) (ix2 p e)
      + broadcastTo ⟨2, ![a, k]⟩ (shapeCast ⟨2, ![1, k]⟩ bias hc) hb (ix2 p e) = _
  rw [castMatmul_apply wf d hd x w h1 h2 p e, rowBias_apply bias hc hb p e]

/-- The rectifier in its vector spelling — the value where it is at least the zero splat, the slope splat times it
    elsewhere — read at an index is the scalar rectifier of the entry. -/
theorem leakyVec_apply {s : Shape} (sl : BitVec 32) (z : FVec Ideal s .f32) (i : s.Idx) :
    select (cmpf .oge z (broadcast s (Scalar.ofBits .f32 0x00000000#32))) z (mulf (broadcast s (Scalar.ofBits .f32 sl)) z) i
      = leaky sl (z i) := rfl

end Cert.CastDense

end
-- ==== Proof.KernelPayload.lean ====
/-
  What the kernel's body stores, entry by entry.

  At one grid point the body holds a block of 5000 edges: rows x0, x1, x2 of the two gathered atom arrays and the bond
  array, the three 32 by 64 blocks x3, x4, x5 of the first layer's weights, the biases x6, x8, x10 as single rows, and the
  weights x7, x9 of the other two layers. It multiplies each of the three row blocks into its own weight block, adds
  the three products and the bias, rectifies, and applies the other two layers. Read at (p, j) the stored value is the
  network of edge p's three rows, the first layer computed block by block. All casts to the shorter float format are
  the identity on the extended reals.
-/
import proofs.«107505_j54090818126503_1_alg».proof.Proof.Gen.KernelIdeal.Skeleton
import proofs.«107505_j54090818126503_1_alg».proof.Proof.EdgeNet
import proofs.«107505_j54090818126503_1_alg».proof.Proof.LibCastDense

noncomputable section

namespace Cert.KernelIdeal.Payload

open Cert.KernelIdeal Cert.KernelIdeal.Gen Idealize.ShloMosaic Idealize.ShloMosaic.ValueIdx
open Cert.EdgeNet Cert.LeakyLayer Cert.CastDense Cert.ColsMatmul

/-- The three products' dimension records are "rows against columns". -/
theorem dims1 : (dot_S5000x32_S32x64_S5000x64_1_0_0_1_n_n : DotDims S5000x32 S32x64 S5000x64)
    = colsDims dot_S5000x32_S32x64_S5000x64_1_0_0_1_n_n_wf := rfl
theorem dims2 : (dot_S5000x64_S64x64_S5000x64_1_0_0_1_n_n : DotDims S5000x64 S64x64 S5000x64)
    = colsDims dot_S5000x64_S64x64_S5000x64_1_0_0_1_n_n_wf := rfl
theorem dims3 : (dot_S5000x64_S64x32_S5000x32_1_0_0_1_n_n : DotDims S5000x64 S64x32 S5000x32)
    = colsDims dot_S5000x64_S64x32_S5000x32_1_0_0_1_n_n_wf := rfl

/-- One of the first layer's three products at (p, e): a row block against its weight block. -/
theorem part_apply (x : FVec Ideal S5000x32 .f32) (w : FVec Ideal S32x64 .f32) (p : Fin 5000) (e : Fin 64) :
    FloatOps.matmul dot_S5000x32_S32x64_S5000x64_1_0_0_1_n_n none (truncf .bf16 x bitsLt_bf16_f32) (truncf .bf16 w bitsLt_bf16_f32)
        (constant S5000x64 .f32 0x00000000#32) (ix2 p e)
      = ∑ k : Fin 32, x (ix2 p k) * w (ix2 k e) :=
  castMatmul_apply dot_S5000x32_S32x64_S5000x64_1_0_0_1_n_n_wf _ dims1 x w bitsLt_bf16_f32 bitsLt_bf16_f32 p e

/-- The stored block at (p, j). -/
theorem pay_apply (x0 x1 x2 : Vec Ideal S5000x32 .f32) (x3 x4 x5 : Vec Ideal S32x64 .f32) (x6 : Vec Ideal S1x64 .f32)
    (x7 : Vec Ideal S64x64 .f32) (x8 : Vec Ideal S1x64 .f32) (x9 : Vec Ideal S64x32 .f32) (x10 : Vec Ideal S1x32 .f32)
    (p : Fin 5000) (j : Fin 32) :
    k0_pay1 (F := Ideal) (k0_pay2 x0 x1 x2 x3 x4 x5 x6 x7) x8 x9 x10 (ix2 p j)
      = edgeRow3 (fun k e => x3 (ix2 k e)) (fun k e => x4 (ix2 k e)) (fun k e => x5 (ix2 k e)) (fun e => x6 (ix2 0 e))
          (fun q e => x7 (ix2 q e)) (fun e => x8 (ix2 0 e)) (fun q e => x9 (ix2 q e)) (fun e => x10 (ix2 0 e))
          (fun k => x0 (ix2 p k)) (fun k => x1 (ix2 p k)) (fun k => x2 (ix2 p k)) j := by
  unfold k0_pay1 k0_pay2
  dsimp only
  rw [castDense_apply dot_S5000x64_S64x32_S5000x32_1_0_0_1_n_n_wf _ dims3 _ x9 x10 bitsLt_bf16_f32 bitsLt_bf16_f32 _ _ p j]
  unfold edgeRow3
  refine congrArg₂ (· + ·) (Finset.sum_congr rfl fun k _ => congrArg₂ (· * ·) ?_ rfl) rfl
  rw [leakyVec_apply]
  unfold layer
  refine congrArg (leaky slopeW) ?_
  rw [castDense_apply dot_S5000x64_S64x64_S5000x64_1_0_0_1_n_n_wf _ dims2 _ x7 x8 bitsLt_bf16_f32 bitsLt_bf16_f32 _ _ p k]
  refine congrArg₂ (· + ·) (Finset.sum_congr rfl fun q _ => congrArg₂ (· * ·) ?_ rfl) rfl
  rw [leakyVec_apply]
  unfold firstLayer3
  refine congrArg (leaky slopeW) ?_
  show ((_ + _) + _) + _ = _
  refine congrArg₂ (· + ·) (congrArg₂ (· + ·) (congrArg₂ (· + ·) ?_ ?_) ?_) ?_
  · rw [shapeCast_self, shapeCast_self]; exact part_apply x0 x3 p q
  · rw [shapeCast_self, shapeCast_self]; exact part_apply x1 x4 p q
  · rw [shapeCast_self]; exact part_apply x2 x5 p q
  · exact rowBias_apply x6 shapeCasts_S1x64_S1x64 broadcasts_S1x64_S5000x64 p q

end Cert.KernelIdeal.Payload

end
-- ==== Proof.KernelBlocks.lean ====
/-
  From blocks to the whole array.

  The grid has 320 points; point t works on rows 5000 t .. 5000 t + 4999 of the three edge arrays and writes the same
  rows of the result, while the weights and biases are staged whole at every point. So what point t writes back is block
  t of ONE whole-array function: entry (r, j) is the network of edge r's three rows (first layer block by block). The
  320 blocks of 5000 rows cover all 1600000 rows, so after the run the result array is that function.
-/
import proofs.«107505_j54090818126503_1_alg».proof.Proof.Gen.KernelIdeal.Value
import proofs.«107505_j54090818126503_1_alg».proof.Proof.KernelPayload

set_option Elab.async false

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeNet
open Idealize.ShloMosaic.Pipeline (Dat)

/-- The result as one function of the arrays the region finds: the three edge arrays A0, A1, A2, the three weight blocks
    B3, B4, B5 of the first layer, and the other layers' weights and one-row biases. -/
def blockNet (A0 A1 A2 : S1600000x32.Idx → EReal) (B3 B4 B5 : S32x64.Idx → EReal) (B6 : S1x64.Idx → EReal)
    (B7 : S64x64.Idx → EReal) (B8 : S1x64.Idx → EReal) (B9 : S64x32.Idx → EReal) (B10 : S1x32.Idx → EReal) :
    S1600000x32.Idx → EReal :=
  fun i => edgeRow3 (fun k e => B3 (ix2 k e)) (fun k e => B4 (ix2 k e)) (fun k e => B5 (ix2 k e)) (fun e => B6 (ix2 0 e))
    (fun q e => B7 (ix2 q e)) (fun e => B8 (ix2 0 e)) (fun q e => B9 (ix2 q e)) (fun e => B10 (ix2 0 e))
    (fun k => A0 (ix2 (i 0) k)) (fun k => A1 (ix2 (i 0) k)) (fun k => A2 (ix2 (i 0) k)) (i 1)

/-- One entry of one block: if row y 0 of the row blocks x0, x1, x2 holds the rows u, v, w, the other blocks are the
    arrays B3 … B10 themselves, and y's column is j, the stored value at y is the network of u, v, w at j. -/
theorem point_eq (x0 x1 x2 : Vec Ideal S5000x32 .f32) (x3 x4 x5 : Vec Ideal S32x64 .f32) (x6 : Vec Ideal S1x64 .f32)
    (x7 : Vec Ideal S64x64 .f32) (x8 : Vec Ideal S1x64 .f32) (x9 : Vec Ideal S64x32 .f32) (x10 : Vec Ideal S1x32 .f32)
    (B3 B4 B5 : S32x64.Idx → EReal) (B6 : S1x64.Idx → EReal)
    (B7 : S64x64.Idx → EReal) (B8 : S1x64.Idx → EReal) (B9 : S64x32.Idx → EReal) (B10 : S1x32.Idx → EReal)
    (y : S5000x32.Idx) (u v w : Fin 32 → EReal) (j : Fin 32)
    (hu : ∀ k : Fin 32, x0 (ix2 (y 0) k) = u k) (hv : ∀ k : Fin 32, x1 (ix2 (y 0) k) = v k)
    (hw : ∀ k : Fin 32, x2 (ix2 (y 0) k) = w k)
    (h3 : x3 = B3) (h4 : x4 = B4) (h5 : x5 = B5) (h6 : x6 = B6) (h7 : x7 = B7) (h8 : x8 = B8) (h9 : x9 = B9)
    (h10 : x10 = B10) (hj : (y 1 : Fin 32) = j) :
    k0_pay1 (F := Ideal) (k0_pay2 x0 x1 x2 x3 x4 x5 x6 x7) x8 x9 x10 y
      = edgeRow3 (fun k e => B3 (ix2 k e)) (fun k e => B4 (ix2 k e)) (fun k e => B5 (ix2 k e)) (fun e => B6 (ix2 0 e))
          (fun q e => B7 (ix2 q e)) (fun e => B8 (ix2 0 e)) (fun q e => B9 (ix2 q e)) (fun e => B10 (ix2 0 e)) u v w j := by
  subst h3 h4 h5 h6 h7 h8 h9 h10 hj
  obtain rfl : (fun k => x0 (ix2 (y 0) k)) = u := funext hu
  obtain rfl : (fun k => x1 (ix2 (y 0) k)) = v := funext hv
  obtain rfl : (fun k => x2 (ix2 (y 0) k)) = w := funext hw
  exact (congrArg (k0_pay1 (F := Ideal) (k0_pay2 x0 x1 x2 x3 x4 x5 x6 x7) x8 x9 x10) (eq_ix2 y)).trans
    (Payload.pay_apply x0 x1 x2 x3 x4 x5 x6 x7 x8 x9 x10 (y 0) (y 1))

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 320 points: the three edge arrays and the result move one block of rows
    per point; every other window stays at its whole array. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_11.index t (0 : Fin 2) = t.val
    ∧ win0_11.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Row y 0 of window 0's block at point t is, for any contents A of the arrays, the row of its array that the result's
    block has at y. -/
theorem rowsA0 (c : Dev nD) (t : Fin cfg0.N) (A : (b : Ref sig .tc) → Buf (Elt Ideal) ((c : Thread nD τ).loc b))
    (y : S5000x32.Idx) (k : Fin 32)
    (fa : win0_0.index t (0 : Fin 2) = t.val) (fb : win0_0.index t (1 : Fin 2) = 0)
    (f11a : win0_11.index t (0 : Fin 2) = t.val) (f11b : win0_11.index t (1 : Fin 2) = 0) :
    ((cfg0.win 0).blk t).view.read (Elt Ideal) (A (Pipeline.arrRef spec0 0)) (ix2 (y 0) k)
      = A main_v0 (ix2 ((((cfg0.win 11).blk t).view.emb y) 0) k) := by
  show A main_v0 (((cfg0.win 0).blk t).view.emb (ix2 (y 0) k)) = A main_v0 (ix2 ((((cfg0.win 11).blk t).view.emb y) 0) k)
  refine congrArg (A main_v0) (funext fun a => Fin.ext ?_)
  match a with
  | ⟨0, _⟩ => show win0_0.index t (0 : Fin 2) * 5000 + 1 * (y 0).val = win0_11.index t (0 : Fin 2) * 5000 + 1 * (y 0).val; omega
  | ⟨1, _⟩ => show win0_0.index t (1 : Fin 2) * 32 + 1 * k.val = k.val; omega

/-- Row y 0 of window 1's block at point t is, for any contents A of the arrays, the row of its array that the result's
    block has at y. -/
theorem rowsA1 (c : Dev nD) (t : Fin cfg0.N) (A : (b : Ref sig .tc) → Buf (Elt Ideal) ((c : Thread nD τ).loc b))
    (y : S5000x32.Idx) (k : Fin 32)
    (fa : win0_1.index t (0 : Fin 2) = t.val) (fb : win0_1.index t (1 : Fin 2) = 0)
    (f11a : win0_11.index t (0 : Fin 2) = t.val) (f11b : win0_11.index t (1 : Fin 2) = 0) :
    ((cfg0.win 1).blk t).view.read (Elt Ideal) (A (Pipeline.arrRef spec0 1)) (ix2 (y 0) k)
      = A main_v1 (ix2 ((((cfg0.win 11).blk t).view.emb y) 0) k) := by
  show A main_v1 (((cfg0.win 1).blk t).view.emb (ix2 (y 0) k)) = A main_v1 (ix2 ((((cfg0.win 11).blk t).view.emb y) 0) k)
  refine congrArg (A main_v1) (funext fun a => Fin.ext ?_)
  match a with
  | ⟨0, _⟩ => show win0_1.index t (0 : Fin 2) * 5000 + 1 * (y 0).val = win0_11.index t (0 : Fin 2) * 5000 + 1 * (y 0).val; omega
  | ⟨1, _⟩ => show win0_1.index t (1 : Fin 2) * 32 + 1 * k.val = k.val; omega

/-- Row y 0 of window 2's block at point t is, for any contents A of the arrays, the row of its array that the result's
    block has at y. -/
theorem rowsA2 (c : Dev nD) (t : Fin cfg0.N) (A : (b : Ref sig .tc) → Buf (Elt Ideal) ((c : Thread nD τ).loc b))
    (y : S5000x32.Idx) (k : Fin 32)
    (fa : win0_2.index t (0 : Fin 2) = t.val) (fb : win0_2.index t (1 : Fin 2) = 0)
    (f11a : win0_11.index t (0 : Fin 2) = t.val) (f11b : win0_11.index t (1 : Fin 2) = 0) :
    ((cfg0.win 2).blk t).view.read (Elt Ideal) (A (Pipeline.arrRef spec0 2)) (ix2 (y 0) k)
      = A main_arg0 (ix2 ((((cfg0.win 11).blk t).view.emb y) 0) k) := by
  show A main_arg0 (((cfg0.win 2).blk t).view.emb (ix2 (y 0) k)) = A main_arg0 (ix2 ((((cfg0.win 11).blk t).view.emb y) 0) k)
  refine congrArg (A main_arg0) (funext fun a => Fin.ext ?_)
  match a with
  | ⟨0, _⟩ => show win0_2.index t (0 : Fin 2) * 5000 + 1 * (y 0).val = win0_11.index t (0 : Fin 2) * 5000 + 1 * (y 0).val; omega
  | ⟨1, _⟩ => show win0_2.index t (1 : Fin 2) * 32 + 1 * k.val = k.val; omega

/-- Window 3's block at every point is, for any contents A of the arrays, its whole array. -/
theorem wholeA3 (c : Dev nD) (t : Fin cfg0.N) (A : (b : Ref sig .tc) → Buf (Elt Ideal) ((c : Thread nD τ).loc b))
    (fa : win0_3.index t (0 : Fin 2) = 0) (fb : win0_3.index t (1 : Fin 2) = 0) :
    ((cfg0.win 3).blk t).view.read (Elt Ideal) (A (Pipeline.arrRef spec0 3)) = A main_v2 := by
  funext z
  show A main_v2 (((cfg0.win 3).blk t).view.emb z) = A main_v2 z
  refine congrArg (A main_v2) (funext fun a => Fin.ext ?_)
  match a with
  | ⟨0, _⟩ => show win0_3.index t (0 : Fin 2) * 32 + 1 * (z 0).val = (z 0).val; omega
  | ⟨1, _⟩ => show win0_3.index t (1 : Fin 2) * 64 + 1 * (z 1).val = (z 1).val; omega

/-- Window 4's block at every point is, for any contents A of the arrays, its whole array. -/
theorem wholeA4 (c : Dev nD) (t : Fin cfg0.N) (A : (b : Ref sig .tc) → Buf (Elt Ideal) ((c : Thread nD τ).loc b))
    (fa : win0_4.index t (0 : Fin 2) = 0) (fb : win0_4.index t (1 : Fin 2) = 0) :
    ((cfg0.win 4).blk t).view.read (Elt Ideal) (A (Pipeline.arrRef spec0 4)) = A main_v3 := by
  funext z
  show A main_v3 (((cfg0.win 4).blk t).view.emb z) = A main_v3 z
  refine congrArg (A main_v3) (funext fun a => Fin.ext ?_)
  match a with
  | ⟨0, _⟩ => show win0_4.index t (0 : Fin 2) * 32 + 1 * (z 0).val = (z 0).val; omega
  | ⟨1, _⟩ => show win0_4.index t (1 : Fin 2) * 64 + 1 * (z 1).val = (z 1).val; omega

/-- Window 5's block at every point is, for any contents A of the arrays, its whole array. -/
theorem wholeA5 (c : Dev nD) (t : Fin cfg0.N) (A : (b : Ref sig .tc) → Buf (Elt Ideal) ((c : Thread nD τ).loc b))
    (fa : win0_5.index t (0 : Fin 2) = 0) (fb : win0_5.index t (1 : Fin 2) = 0) :
    ((cfg0.win 5).blk t).view.read (Elt Ideal) (A (Pipeline.arrRef spec0 5)) = A main_v4 := by
  funext z
  show A main_v4 (((cfg0.win 5).blk t).view.emb z) = A main_v4 z
  refine congrArg (A main_v4) (funext fun a => Fin.ext ?_)
  match a with
  | ⟨0, _⟩ => show win0_5.index t (0 : Fin 2) * 32 + 1 * (z 0).val = (z 0).val; omega
  | ⟨1, _⟩ => show win0_5.index t (1 : Fin 2) * 64 + 1 * (z 1).val = (z 1).val; omega

/-- Window 6's block at every point is, for any contents A of the arrays, its whole array. -/
theorem wholeA6 (c : Dev nD) (t : Fin cfg0.N) (A : (b : Ref sig .tc) → Buf (Elt Ideal) ((c : Thread nD τ).loc b))
    (fa : win0_6.index t (0 : Fin 2) = 0) (fb : win0_6.index t (1 : Fin 2) = 0) :
    ((cfg0.win 6).blk t).view.read (Elt Ideal) (A (Pipeline.arrRef spec0 6)) = A main_v5 := by
  funext z
  show A main_v5 (((cfg0.win 6).blk t).view.emb z) = A main_v5 z
  refine congrArg (A main_v5) (funext fun a => Fin.ext ?_)
  match a with
  | ⟨0, _⟩ => show win0_6.index t (0 : Fin 2) * 1 + 1 * (z 0).val = (z 0).val; omega
  | ⟨1, _⟩ => show win0_6.index t (1 : Fin 2) * 64 + 1 * (z 1).val = (z 1).val; omega

/-- Window 7's block at every point is, for any contents A of the arrays, its whole array. -/
theorem wholeA7 (c : Dev nD) (t : Fin cfg0.N) (A : (b : Ref sig .tc) → Buf (Elt Ideal) ((c : Thread nD τ).loc b))
    (fa : win0_7.index t (0 : Fin 2) = 0) (fb : win0_7.index t (1 : Fin 2) = 0) :
    ((cfg0.win 7).blk t).view.read (Elt Ideal) (A (Pipeline.arrRef spec0 7)) = A main_arg6 := by
  funext z
  show A main_arg6 (((cfg0.win 7).blk t).view.emb z) = A main_arg6 z
  refine congrArg (A main_arg6) (funext fun a => Fin.ext ?_)
  match a with
  | ⟨0, _⟩ => show win0_7.index t (0 : Fin 2) * 64 + 1 * (z 0).val = (z 0).val; omega
  | ⟨1, _⟩ => show win0_7.index t (1 : Fin 2) * 64 + 1 * (z 1).val = (z 1).val; omega

/-- Window 8's block at every point is, for any contents A of the arrays, its whole array. -/
theorem wholeA8 (c : Dev nD) (t : Fin cfg0.N) (A : (b : Ref sig .tc) → Buf (Elt Ideal) ((c : Thread nD τ).loc b))
    (fa : win0_8.index t (0 : Fin 2) = 0) (fb : win0_8.index t (1 : Fin 2) = 0) :
    ((cfg0.win 8).blk t).view.read (Elt Ideal) (A (Pipeline.arrRef spec0 8)) = A main_v6 := by
  funext z
  show A main_v6 (((cfg0.win 8).blk t).view.emb z) = A main_v6 z
  refine congrArg (A main_v6) (funext fun a => Fin.ext ?_)
  match a with
  | ⟨0, _⟩ => show win0_8.index t (0 : Fin 2) * 1 + 1 * (z 0).val = (z 0).val; omega
  | ⟨1, _⟩ => show win0_8.index t (1 : Fin 2) * 64 + 1 * (z 1).val = (z 1).val; omega

/-- Window 9's block at every point is, for any contents A of the arrays, its whole array. -/
theorem wholeA9 (c : Dev nD) (t : Fin cfg0.N) (A : (b : Ref sig .tc) → Buf (Elt Ideal) ((c : Thread nD τ).loc b))
    (fa : win0_9.index t (0 : Fin 2) = 0) (fb : win0_9.index t (1 : Fin 2) = 0) :
    ((cfg0.win 9).blk t).view.read (Elt Ideal) (A (Pipeline.arrRef spec0 9)) = A main_arg8 := by
  funext z
  show A main_arg8 (((cfg0.win 9).blk t).view.emb z) = A main_arg8 z
  refine congrArg (A main_arg8) (funext fun a => Fin.ext ?_)
  match a with
  | ⟨0, _⟩ => show win0_9.index t (0 : Fin 2) * 64 + 1 * (z 0).val = (z 0).val; omega
  | ⟨1, _⟩ => show win0_9.index t (1 : Fin 2) * 32 + 1 * (z 1).val = (z 1).val; omega

/-- Window 10's block at every point is, for any contents A of the arrays, its whole array. -/
theorem wholeA10 (c : Dev nD) (t : Fin cfg0.N) (A : (b : Ref sig .tc) → Buf (Elt Ideal) ((c : Thread nD τ).loc b))
    (fa : win0_10.index t (0 : Fin 2) = 0) (fb : win0_10.index t (1 : Fin 2) = 0) :
    ((cfg0.win 10).blk t).view.read (Elt Ideal) (A (Pipeline.arrRef spec0 10)) = A main_v7 := by
  funext z
  show A main_v7 (((cfg0.win 10).blk t).view.emb z) = A main_v7 z
  refine congrArg (A main_v7) (funext fun a => Fin.ext ?_)
  match a with
  | ⟨0, _⟩ => show win0_10.index t (0 : Fin 2) * 1 + 1 * (z 0).val = (z 0).val; omega
  | ⟨1, _⟩ => show win0_10.index t (1 : Fin 2) * 32 + 1 * (z 1).val = (z 1).val; omega

/-- The result's block keeps the column. -/
theorem col11 (t : Fin cfg0.N) (y : S5000x32.Idx) (f11b : win0_11.index t (1 : Fin 2) = 0) :
    (y 1 : Fin 32) = (((cfg0.win 11).blk t).view.emb y) 1 := by
  apply Fin.ext
  show (y 1).val = win0_11.index t (1 : Fin 2) * 32 + 1 * (y 1).val
  omega

end Cert.KernelIdeal.Blocks

end
-- ==== Proof.KernelArray.lean ====
/-
  The result array after the run.

  What grid point t writes back is block t of the whole-array function of the arrays the region finds: each staged block
  is read where the result's block says. An index of the result is in point t's block exactly when its row is in
  5000 t .. 5000 t + 4999, so row r is covered by point r / 5000, and the 320 blocks cover the array: after the run the
  result array is that whole-array function.
-/
import proofs.«107505_j54090818126503_1_alg».proof.Proof.KernelBlocks

set_option Elab.async false

noncomputable section

namespace Cert.KernelIdeal.Blocks

open Cert.KernelIdeal Cert.KernelIdeal.Gen Idealize.ShloMosaic Idealize.ShloMosaic.TcCoe Idealize.SL.Sem
open Idealize.ShloMosaic.ValueIdx Cert.EdgeNet
open Idealize.ShloMosaic.Pipeline (Dat)

variable (m : (ℓ : Loc nD τ sig) → Buf (Elt Ideal) ℓ) (ρ : Dev nD → PrngReg)

-- the statement names all eleven staged blocks, each read through its window at a symbolic point
set_option maxHeartbeats 4000000 in
/-- For any contents A of the arrays: the body's result on the blocks of A at point t, cut to the result's block, is block
    t of the whole-array function of A. -/
theorem flushedA (c : Dev nD) (t : Fin cfg0.N) (A : (b : Ref sig .tc) → Buf (Elt Ideal) ((c : Thread nD τ).loc b)) :
    (cfg0.win 11).cut (grid0.coords t) (out0_11 (((cfg0.win 0).blk t).view.read (Elt Ideal) (A (Pipeline.arrRef spec0 0))) (((cfg0.win 1).blk t).view.read (Elt Ideal) (A (Pipeline.arrRef spec0 1))) (((cfg0.win 2).blk t).view.read (Elt Ideal) (A (Pipeline.arrRef spec0 2))) (((cfg0.win 3).blk t).view.read (Elt Ideal) (A (Pipeline.arrRef spec0 3))) (((cfg0.win 4).blk t).view.read (Elt Ideal) (A (Pipeline.arrRef spec0 4))) (((cfg0.win 5).blk t).view.read (Elt Ideal) (A (Pipeline.arrRef spec0 5))) (((cfg0.win 6).blk t).view.read (Elt Ideal) (A (Pipeline.arrRef spec0 6))) (((cfg0.win 7).blk t).view.read (Elt Ideal) (A (Pipeline.arrRef spec0 7))) (((cfg0.win 8).blk t).view.read (Elt Ideal) (A (Pipeline.arrRef spec0 8))) (((cfg0.win 9).blk t).view.read (Elt Ideal) (A (Pipeline.arrRef spec0 9))) (((cfg0.win 10).blk t).view.read (Elt Ideal) (A (Pipeline.arrRef spec0 10))))
      = ((cfg0.win 11).blk t).view.read (Elt Ideal) (blockNet (A main_v0) (A main_v1) (A main_arg0) (A main_v2) (A main_v3) (A main_v4) (A main_v5) (A main_arg6) (A main_v6) (A main_arg8) (A main_v7)) := by
  unfold out0_11
  rw [View.canon_unit_zero hz]
  simp only [View.ld_unit_zero (S := S5000x32) hz, View.ld_unit_zero (S := S32x64) hz, View.ld_unit_zero (S := S1x64) hz,
    View.ld_unit_zero (S := S64x64) hz, View.ld_unit_zero (S := S64x32) hz, View.ld_unit_zero (S := S1x32) hz]
  obtain ⟨f0a, f0b, f1a, f1b, f2a, f2b, f11a, f11b, f3a, f3b, f4a, f4b, f5a, f5b, f6a, f6b, f7a, f7b, f8a, f8b, f9a, f9b, f10a, f10b⟩ := idx_facts t
  funext y
  show k0_pay1 (F := Ideal) (k0_pay2 (((cfg0.win 0).blk t).view.read (Elt Ideal) (A (Pipeline.arrRef spec0 0))) (((cfg0.win 1).blk t).view.read (Elt Ideal) (A (Pipeline.arrRef spec0 1))) (((cfg0.win 2).blk t).view.read (Elt Ideal) (A (Pipeline.arrRef spec0 2))) (((cfg0.win 3).blk t).view.read (Elt Ideal) (A (Pipeline.arrRef spec0 3))) (((cfg0.win 4).blk t).view.read (Elt Ideal) (A (Pipeline.arrRef spec0 4))) (((cfg0.win 5).blk t).view.read (Elt Ideal) (A (Pipeline.arrRef spec0 5))) (((cfg0.win 6).blk t).view.read (Elt Ideal) (A (Pipeline.arrRef spec0 6))) (((cfg0.win 7).blk t).view.read (Elt Ideal) (A (Pipeline.arrRef spec0 7)))) (((cfg0.win 8).blk t).view.read (Elt Ideal) (A (Pipeline.arrRef spec0 8))) (((cfg0.win 9).blk t).view.read (Elt Ideal) (A (Pipeline.arrRef spec0 9))) (((cfg0.win 10).blk t).view.read (Elt Ideal) (A (Pipeline.arrRef spec0 10))) y
    = blockNet (A main_v0) (A main_v1) (A main_arg0) (A main_v2) (A main_v3) (A main_v4) (A main_v5) (A main_arg6) (A main_v6) (A main_arg8) (A main_v7) (((cfg0.win 11).blk t).view.emb y)
  exact point_eq (((cfg0.win 0).blk t).view.read (Elt Ideal) (A (Pipeline.arrRef spec0 0))) (((cfg0.win 1).blk t).view.read (Elt Ideal) (A (Pipeline.arrRef spec0 1))) (((cfg0.win 2).blk t).view.read (Elt Ideal) (A (Pipeline.arrRef spec0 2))) (((cfg0.win 3).blk t).view.read (Elt Ideal) (A (Pipeline.arrRef spec0 3))) (((cfg0.win 4).blk t).view.read (Elt Ideal) (A (Pipeline.arrRef spec0 4))) (((cfg0.win 5).blk t).view.read (Elt Ideal) (A (Pipeline.arrRef spec0 5))) (((cfg0.win 6).blk t).view.read (Elt Ideal) (A (Pipeline.arrRef spec0 6))) (((cfg0.win 7).blk t).view.read (Elt Ideal) (A (Pipeline.arrRef spec0 7))) (((cfg0.win 8).blk t).view.read (Elt Ideal) (A (Pipeline.arrRef spec0 8))) (((cfg0.win 9).blk t).view.read (Elt Ideal) (A (Pipeline.arrRef spec0 9))) (((cfg0.win 10).blk t).view.read (Elt Ideal) (A (Pipeline.arrRef spec0 10))) (A main_v2) (A main_v3) (A main_v4) (A main_v5) (A main_arg6) (A main_v6) (A main_arg8) (A main_v7) y (fun k => A main_v0 (ix2 ((((cfg0.win 11).blk t).view.emb y) 0) k)) (fun k => A main_v1 (ix2 ((((cfg0.win 11).blk t).view.emb y) 0) k)) (fun k => A main_arg0 (ix2 ((((cfg0.win 11).blk t).view.emb y) 0) k)) ((((cfg0.win 11).blk t).view.emb y) 1)
    (fun k => rowsA0 c t A y k f0a f0b f11a f11b) (fun k => rowsA1 c t A y k f1a f1b f11a f11b)
    (fun k => rowsA2 c t A y k f2a f2b f11a f11b)
    (wholeA3 c t A f3a f3b) (wholeA4 c t A f4a f4b) (wholeA5 c t A f5a f5b) (wholeA6 c t A f6a f6b)
    (wholeA7 c t A f7a f7b) (wholeA8 c t A f8a f8b) (wholeA9 c t A f9a f9b) (wholeA10 c t A f10a f10b)
    (col11 t y f11b)

/-- What point t writes back is block t of the whole-array function of the arrays the region finds. -/
theorem flushed_eq (c : Dev nD) (t : Fin cfg0.N) :
    (dats m 0 c).flushed 11 t = ((cfg0.win 11).blk t).view.read (Elt Ideal)
      (blockNet (V m c main_v0) (V m c main_v1) (V m c main_arg0) (V m c main_v2) (V m c main_v3) (V m c main_v4) (V m c main_v5) (V m c main_arg6) (V m c main_v6) (V m c main_arg8) (V m c main_v7)) :=
  (Value.flushed11 m c t).trans (flushedA c t (V m c))

/-- An index is in point t's block exactly when each coordinate is in the block's range. -/
theorem mem_blk (t : Fin cfg0.N) (i : S1600000x32.Idx) :
    i ∈ ((cfg0.win 11).blk t).view.set ↔ ∀ a : Fin 2, win0_11.index t a * S5000x32.size a ≤ (i a).val
      ∧ (i a).val < win0_11.index t a * S5000x32.size a + S5000x32.size a := by
  show i ∈ ((View.whole main_v8).slice (win0_11.rect t)).set ↔ _
  rw [View.set_slice_whole, Rect.mem_set_unit]
  exact Iff.rfl

/-- Every row is in some point's block: row r is in block r / 5000. -/
theorem cover (i : S1600000x32.Idx) :
    ∃ t : Fin cfg0.N, (cfg0.win 11).flush t = true ∧ i ∈ ((cfg0.win 11).blk t).view.set := by
  have hi0 : (i 0).val < 1600000 := (i 0).isLt
  have hi1 : (i 1).val < 32 := (i 1).isLt
  have hN : (i 0).val / 5000 < cfg0.N := by show _ < grid0.N; rw [N_0]; omega
  refine ⟨⟨(i 0).val / 5000, hN⟩, flush0_11 _, ?_⟩
  rw [mem_blk]
  obtain ⟨f0a, f0b, f1a, f1b, f2a, f2b, f11a, f11b, f3a, f3b, f4a, f4b, f5a, f5b, f6a, f6b, f7a, f7b, f8a, f8b, f9a, f9b, f10a, f10b⟩ := idx_facts ⟨(i 0).val / 5000, hN⟩
  intro a
  match a with
  | ⟨0, _⟩ =>
    show win0_11.index ⟨(i 0).val / 5000, hN⟩ (0 : Fin 2) * 5000 ≤ (i 0).val
      ∧ (i 0).val < win0_11.index ⟨(i 0).val / 5000, hN⟩ (0 : Fin 2) * 5000 + 5000
    rw [f11a]; show (i 0).val / 5000 * 5000 ≤ (i 0).val ∧ (i 0).val < (i 0).val / 5000 * 5000 + 5000; omega
  | ⟨1, _⟩ =>
    show win0_11.index ⟨(i 0).val / 5000, hN⟩ (1 : Fin 2) * 32 ≤ (i 1).val
      ∧ (i 1).val < win0_11.index ⟨(i 0).val / 5000, hN⟩ (1 : Fin 2) * 32 + 32
    rw [f11b]; omega

/-- After the run the result array is the whole-array function of the arrays the region finds. -/
theorem final (c : Dev nD) : (dats m 0 c).arrAt 11 cfg0.N = blockNet (V m c main_v0) (V m c main_v1) (V m c main_arg0) (V m c main_v2) (V m c main_v3) (V m c main_v4) (V m c main_v5) (V m c main_arg6) (V m c main_v6) (V m c main_arg8) (V m c main_v7) :=
  (dats m 0 c).arrAt_eq_of_cover 11 _ (fun t _ => flushed_eq m c t) cover

end Cert.KernelIdeal.Blocks

end
-- ==== Proof.TakeRows.lean ====
/-
  Gathering rows of a table by an index list, out-of-range entries filled.

  Given a table of 50000 rows of 32 numbers and a list of 1600000 row numbers, the result has one row of 32 per list
  entry. A negative row number n first becomes n + 50000. An entry whose row number is then still outside 0..49999
  gets a row of the fill value (the float word 0x7FC00000); every other entry gets the table's row of that number.

  The function is written as the composition of the array operations that compute it, for any float instance, and is
  used here only as a name: both programs apply it to the same table and the same index lists, so its value is never
  opened.
-/
import Idealize.ShloMosaic.PureOps.Ideal
import Idealize.ShloMosaic.Lib.ValueIdx

noncomputable section

namespace Cert.EdgeNet

open Idealize.ShloMosaic

variable {F : FTy → Type} [FloatOps F]

/-- The rows of the table 'atoms' named by 'idx', with the wrap of negative numbers and the fill of out-of-range ones.
    The hypotheses are the shape relations the operations ask of their operands; 'g' is the gather's dimension record. -/
def takeRows
    (h1 : (⟨0, ![]⟩ : Shape).BroadcastsInDim ⟨1, ![1600000]⟩ (![] : Fin 0 → Fin 1))
    (h2 : (⟨1, ![1600000]⟩ : Shape).BroadcastsInDim ⟨2, ![1600000, 1]⟩ (![0] : Fin 1 → Fin 2))
    (h3 : (⟨0, ![]⟩ : Shape).BroadcastsInDim ⟨2, ![1600000, 1]⟩ (![] : Fin 0 → Fin 2))
    (h4 : (⟨1, ![1]⟩ : Shape).BroadcastsInDim ⟨2, ![1, 1]⟩ (![1] : Fin 1 → Fin 2))
    (h5 : (⟨2, ![1, 1]⟩ : Shape).BroadcastsInDim ⟨2, ![1600000, 1]⟩ (![0, 1] : Fin 2 → Fin 2))
    (h6 : (⟨2, ![1600000, 1]⟩ : Shape).ReducesTo [1] ⟨1, ![1600000]⟩)
    (h7 : 0 < (⟨0, ![]⟩ : Shape).numel)
    (h8 : (⟨1, ![1600000]⟩ : Shape).BroadcastsInDim ⟨2, ![1600000, 32]⟩ (![0] : Fin 1 → Fin 2))
    (h9 : (⟨0, ![]⟩ : Shape).BroadcastsInDim ⟨2, ![1600000, 32]⟩ (![] : Fin 0 → Fin 2))
    (g : GatherDims ⟨2, ![50000, 32]⟩ ⟨2, ![1600000, 1]⟩ ⟨2, ![1600000, 32]⟩)
    (atoms : FVec F ⟨2, ![50000, 32]⟩ .f32) (idx : IVec ⟨1, ![1600000]⟩ 32) : FVec F ⟨2, ![1600000, 32]⟩ .f32 :=
  select
    (broadcastInDim ⟨2, ![1600000, 32]⟩ ![0] h8
      (Host.reduce IntOp.andi
        (andi
          (cmpi .sge
            (broadcastInDim ⟨2, ![1600000, 1]⟩ ![0] h2
              (select (cmpi .slt idx (broadcastInDim ⟨1, ![1600000]⟩ ![] h1 (constantI ⟨0, ![]⟩ 32 0#32)))
                (addi idx (broadcastInDim ⟨1, ![1600000]⟩ ![] h1 (constantI ⟨0, ![]⟩ 32 50000#32))) idx))
            (broadcastInDim ⟨2, ![1600000, 1]⟩ ![] h3 (constantI ⟨0, ![]⟩ 32 0#32)))
          (cmpi .sle
            (broadcastInDim ⟨2, ![1600000, 1]⟩ ![0] h2
              (select (cmpi .slt idx (broadcastInDim ⟨1, ![1600000]⟩ ![] h1 (constantI ⟨0, ![]⟩ 32 0#32)))
                (addi idx (broadcastInDim ⟨1, ![1600000]⟩ ![] h1 (constantI ⟨0, ![]⟩ 32 50000#32))) idx))
            (broadcastInDim ⟨2, ![1600000, 1]⟩ ![0, 1] h5 (broadcastInDim ⟨2, ![1, 1]⟩ ![1] h4 (constantI ⟨1, ![1]⟩ 32 49999#32)))))
        (constantI ⟨0, ![]⟩ 1 1#1) h6 h7))
    (Host.gather g atoms
      (broadcastInDim ⟨2, ![1600000, 1]⟩ ![0] h2
        (select (cmpi .slt idx (broadcastInDim ⟨1, ![1600000]⟩ ![] h1 (constantI ⟨0, ![]⟩ 32 0#32)))
          (addi idx (broadcastInDim ⟨1, ![1600000]⟩ ![] h1 (constantI ⟨0, ![]⟩ 32 50000#32))) idx)))
    (broadcastInDim ⟨2, ![1600000, 32]⟩ ![] h9 (constant ⟨0, ![]⟩ .f32 0x7FC00000#32))

end Cert.EdgeNet

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.LibTypedRefs.lean ====
/-
  Typed references: the two transports cancel.

  An operation of a called function reads and writes its buffers through typed references: contents stated at the tensor
  value's type are moved to the buffer's own type when written and back when read. Moving to the buffer's type and back
  gives the contents one started with, so a value read where it was just written is the value.
-/
import Idealize.ShloMosaic.Lib.StableHlo

namespace Idealize.ShloMosaic.StableHlo

variable {sig : RefSig} {Val : EltTy → Type}

/-- Contents moved to a typed reference's own buffer type and back are the contents. -/
theorem TRef.ofBuf_toBuf {T : BufTy} (x : TRef sig T) (v : T.Contents Val) : x.ofBuf (x.toBuf v) = v := by
  simp only [TRef.ofBuf, TRef.toBuf, cast_cast, cast_eq]

end Idealize.ShloMosaic.StableHlo
-- ==== Proof.KernelHost.lean ====
/-
  What the kernel's region finds in the arrays it stages.

  Before the region the host code gathers the two atom-row arrays, cuts the first layer's 96 by 64 weights into three
  32 by 64 blocks (rows 0–31, 32–63, 64–95) and views each bias as one row. The other staged arrays are arguments as
  launched. The host code is three stretches of operations; each statement below reads one buffer after them as the
  writing stretch's value of the arguments, the other stretches leaving that buffer alone.
-/
import proofs.«107505_j54090818126503_1_alg».proof.Proof.Gen.KernelIdeal.Frame
import proofs.«107505_j54090818126503_1_alg».proof.Proof.TakeRows
import proofs.«107505_j54090818126503_1_alg».proof.Proof.LibAfterStages
import proofs.«107505_j54090818126503_1_alg».proof.Proof.LibTypedRefs

set_option Elab.async false

noncomputable section

namespace Cert.KernelIdeal.HostSide

open Cert.KernelIdeal Cert.KernelIdeal.Gen Idealize.ShloMosaic Idealize.ShloMosaic.TcCoe Idealize.SL.Sem Idealize.ShloMosaic.StableHlo
open Cert.EdgeNet (takeRows)

variable {F : FTy → Type} [FloatOps F]

/-- A gather of atom rows with this program's shape facts. -/
abbrev take (atoms : (⟨S50000x32, .f32⟩ : BufTy).Contents (Elt F)) (idx : (⟨S1600000, .i32⟩ : BufTy).Contents (Elt F)) :
    (⟨S1600000x32, .f32⟩ : BufTy).Contents (Elt F) :=
  takeRows bcast_S_S1600000 bcast_S1600000_S1600000x1_0 bcast_S_S1600000x1 bcast_S1_S1x1_1 bcast_S1x1_S1600000x1_0_1
    reducesTo_S1600000x1_S1600000_d1 h_S_ bcast_S1600000_S1600000x32_0 bcast_S_S1600000x32
    gather_S50000x32_S1600000x1_S1600000x32_1_0_n_n_0_1_132 atoms idx

/-! ## Each stretch's results, and what each stretch leaves alone -/

-- the reductions and gathers are folds over 1.6 million rows: they are compared as they stand, never opened
attribute [local irreducible] Host.reduce Host.gather

theorem take0_val (W : Valuation τ sig (Elt F)) :
    after hostOps0 W (main_v0 : DevRef τ sig) = take (W (main_arg3 : DevRef τ sig)) (W (main_arg1 : DevRef τ sig)) := by
  after_results_simp
  simp only [TRef.ofBuf_toBuf]
  rfl

theorem take1_val (W : Valuation τ sig (Elt F)) :
    after hostOps0_1 W (main_v1 : DevRef τ sig) = take (W (main_arg3 : DevRef τ sig)) (W (main_arg2 : DevRef τ sig)) := by
  after_results_simp
  simp only [TRef.ofBuf_toBuf]
  rfl

theorem slice0_val (W : Valuation τ sig (Elt F)) :
    after hostOps0_2 W (main_v2 : DevRef τ sig)
      = extractStridedSlice S32x64 ![0, 0] (W (main_arg4 : DevRef τ sig)) slices_S96x64_S32x64_0_0 := by
  after_results_simp

theorem slice1_val (W : Valuation τ sig (Elt F)) :
    after hostOps0_2 W (main_v3 : DevRef τ sig)
      = extractStridedSlice S32x64 ![32, 0] (W (main_arg4 : DevRef τ sig)) slices_S96x64_S32x64_32_0 := by
  after_results_simp

theorem slice2_val (W : Valuation τ sig (Elt F)) :
    after hostOps0_2 W (main_v4 : DevRef τ sig)
      = extractStridedSlice S32x64 ![64, 0] (W (main_arg4 : DevRef τ sig)) slices_S96x64_S32x64_64_0 := by
  after_results_simp

theorem bias1_val (W : Valuation τ sig (Elt F)) :
    after hostOps0_2 W (main_v5 : DevRef τ sig) = shapeCast S1x64 (W (main_arg5 : DevRef τ sig)) shapeCasts_S64_S1x64 := by
  after_results_simp
  rfl

theorem bias2_val (W : Valuation τ sig (Elt F)) :
    after hostOps0_2 W (main_v6 : DevRef τ sig) = shapeCast S1x64 (W (main_arg7 : DevRef τ sig)) shapeCasts_S64_S1x64 := by
  after_results_simp
  rfl

theorem bias3_val (W : Valuation τ sig (Elt F)) :
    after hostOps0_2 W (main_v7 : DevRef τ sig) = shapeCast S1x32 (W (main_arg9 : DevRef τ sig)) shapeCasts_S32_S1x32 := by
  after_results_simp
  rfl

theorem H1_keeps_v0 (W : Valuation τ sig (Elt F)) : after hostOps0_1 W (main_v0 : DevRef τ sig) = W (main_v0 : DevRef τ sig) := by kept_through [hostOps0_1]
theorem H2_keeps_v0 (W : Valuation τ sig (Elt F)) : after hostOps0_2 W (main_v0 : DevRef τ sig) = W (main_v0 : DevRef τ sig) := by kept_through [hostOps0_2]
theorem H2_keeps_v1 (W : Valuation τ sig (Elt F)) : after hostOps0_2 W (main_v1 : DevRef τ sig) = W (main_v1 : DevRef τ sig) := by kept_through [hostOps0_2]
theorem H0_keeps_arg2 (W : Valuation τ sig (Elt F)) : after hostOps0 W (main_arg2 : DevRef τ sig) = W (main_arg2 : DevRef τ sig) := by kept_through [hostOps0]
theorem H0_keeps_arg3 (W : Valuation τ sig (Elt F)) : after hostOps0 W (main_arg3 : DevRef τ sig) = W (main_arg3 : DevRef τ sig) := by kept_through [hostOps0]
theorem H0_keeps_arg4 (W : Valuation τ sig (Elt F)) : after hostOps0 W (main_arg4 : DevRef τ sig) = W (main_arg4 : DevRef τ sig) := by kept_through [hostOps0]
theorem H0_keeps_arg5 (W : Valuation τ sig (Elt F)) : after hostOps0 W (main_arg5 : DevRef τ sig) = W (main_arg5 : DevRef τ sig) := by kept_through [hostOps0]
theorem H0_keeps_arg7 (W : Valuation τ sig (Elt F)) : after hostOps0 W (main_arg7 : DevRef τ sig) = W (main_arg7 : DevRef τ sig) := by kept_through [hostOps0]
theorem H0_keeps_arg9 (W : Valuation τ sig (Elt F)) : after hostOps0 W (main_arg9 : DevRef τ sig) = W (main_arg9 : DevRef τ sig) := by kept_through [hostOps0]
theorem H1_keeps_arg4 (W : Valuation τ sig (Elt F)) : after hostOps0_1 W (main_arg4 : DevRef τ sig) = W (main_arg4 : DevRef τ sig) := by kept_through [hostOps0_1]
theorem H1_keeps_arg5 (W : Valuation τ sig (Elt F)) : after hostOps0_1 W (main_arg5 : DevRef τ sig) = W (main_arg5 : DevRef τ sig) := by kept_through [hostOps0_1]
theorem H1_keeps_arg7 (W : Valuation τ sig (Elt F)) : after hostOps0_1 W (main_arg7 : DevRef τ sig) = W (main_arg7 : DevRef τ sig) := by kept_through [hostOps0_1]
theorem H1_keeps_arg9 (W : Valuation τ sig (Elt F)) : after hostOps0_1 W (main_arg9 : DevRef τ sig) = W (main_arg9 : DevRef τ sig) := by kept_through [hostOps0_1]

variable (m : (ℓ : Loc nD τ sig) → Buf (Elt F) ℓ)

/-- The region's buffers are the three stretches' folds one after the other over the launch contents. -/
theorem V_stages (c : Dev nD) (b : Ref sig .tc) :
    V m c b = after hostOps0_2 (after hostOps0_1 (after hostOps0 (fun b => m (c, b)))) (b : DevRef τ sig) := by
  show after (List.flatten [hostOps0, hostOps0_1, hostOps0_2]) (fun b => m (c, b)) (b : DevRef τ sig) = _
  simp only [List.flatten_cons, List.flatten_nil, List.append_nil, after_append]

/-- The first gathered array: rows of the atom table named by the first index list. -/
theorem V_main_v0 (c : Dev nD) :
    V m c main_v0 = take (m ((c : Thread nD τ).loc main_arg3)) (m ((c : Thread nD τ).loc main_arg1)) := by
  rw [V_stages, H2_keeps_v0, H1_keeps_v0, take0_val]

/-- The second: by the second index list. -/
theorem V_main_v1 (c : Dev nD) :
    V m c main_v1 = take (m ((c : Thread nD τ).loc main_arg3)) (m ((c : Thread nD τ).loc main_arg2)) := by
  rw [V_stages, H2_keeps_v1, take1_val, H0_keeps_arg3, H0_keeps_arg2]

/-- Rows 0–31 of the first layer's weights. -/
theorem V_main_v2 (c : Dev nD) :
    V m c main_v2 = extractStridedSlice S32x64 ![0, 0] (m ((c : Thread nD τ).loc main_arg4)) slices_S96x64_S32x64_0_0 := by
  rw [V_stages, slice0_val, H1_keeps_arg4, H0_keeps_arg4]

/-- Rows 32–63. -/
theorem V_main_v3 (c : Dev nD) :
    V m c main_v3 = extractStridedSlice S32x64 ![32, 0] (m ((c : Thread nD τ).loc main_arg4)) slices_S96x64_S32x64_32_0 := by
  rw [V_stages, slice1_val, H1_keeps_arg4, H0_keeps_arg4]

/-- Rows 64–95. -/
theorem V_main_v4 (c : Dev nD) :
    V m c main_v4 = extractStridedSlice S32x64 ![64, 0] (m ((c : Thread nD τ).loc main_arg4)) slices_S96x64_S32x64_64_0 := by
  rw [V_stages, slice2_val, H1_keeps_arg4, H0_keeps_arg4]

/-- The first bias as one row. -/
theorem V_main_v5 (c : Dev nD) :
    V m c main_v5 = shapeCast S1x64 (m ((c : Thread nD τ).loc main_arg5)) shapeCasts_S64_S1x64 := by
  rw [V_stages, bias1_val, H1_keeps_arg5, H0_keeps_arg5]

/-- The second bias as one row. -/
theorem V_main_v6 (c : Dev nD) :
    V m c main_v6 = shapeCast S1x64 (m ((c : Thread nD τ).loc main_arg7)) shapeCasts_S64_S1x64 := by
  rw [V_stages, bias2_val, H1_keeps_arg7, H0_keeps_arg7]

/-- The third bias as one row. -/
theorem V_main_v7 (c : Dev nD) :
    V m c main_v7 = shapeCast S1x32 (m ((c : Thread nD τ).loc main_arg9)) shapeCasts_S32_S1x32 := by
  rw [V_stages, bias3_val, H1_keeps_arg9, H0_keeps_arg9]

end Cert.KernelIdeal.HostSide

end
-- ==== Proof.KernelFinal.lean ====
/-
  The kernel's result as a function of its arguments.

  The region's three weight blocks are rows 0–31, 32–63 and 64–95 of the first layer's weights, its one-row biases are
  the bias vectors, and its two gathered arrays are the gathers of the atom table. So the whole-array function the
  blocks fill is the network array of the arguments: the first layer computed block by block equals the first layer on
  the row of 96, because a sum over 96 terms is the sum of its three stretches of 32.
-/
import proofs.«107505_j54090818126503_1_alg».proof.Proof.KernelArray
import proofs.«107505_j54090818126503_1_alg».proof.Proof.KernelHost
import Idealize.ShloMosaic.Lib.ValueLayout

set_option Elab.async false

noncomputable section

namespace Cert.KernelIdeal.Final

open Cert.KernelIdeal Cert.KernelIdeal.Gen Idealize.ShloMosaic Idealize.ShloMosaic.TcCoe Idealize.SL.Sem
open Idealize.ShloMosaic.ValueIdx Cert.EdgeNet

/-- A block of 32 rows of the 96-row weights starting at row 'off', read at (k, e): row off + k. -/
theorem slice_apply (W : S96x64.Idx → EReal) (off : ℕ) (h : S96x64.Slices ![off, 0] S32x64) (k : Fin 32) (e : Fin 64)
    (q : Fin 96) (hq : q.val = off + k.val) :
    extractStridedSlice S32x64 ![off, 0] W h (ix2 k e) = W (ix2 q e) :=
  extractStridedSlice_apply ![off, 0] W h (ix2 k e) (ix2 q e) (fun a => by
    match a with
    | ⟨0, _⟩ => exact hq
    | ⟨1, _⟩ => exact (Nat.zero_add _).symm)

/-- The network with the first layer computed from three weight blocks that are the three stretches of the 96-row
    weights, and the biases read through their one-row views, is the network array. -/
theorem blockNet_slices (a1 a2 bd : S1600000x32.Idx → EReal) (W1 : S96x64.Idx → EReal) (b1 : S64.Idx → EReal)
    (W2 : S64x64.Idx → EReal) (b2 : S64.Idx → EReal) (W3 : S64x32.Idx → EReal) (b3 : S32.Idx → EReal) :
    Blocks.blockNet a1 a2 bd
        (extractStridedSlice S32x64 ![0, 0] W1 slices_S96x64_S32x64_0_0)
        (extractStridedSlice S32x64 ![32, 0] W1 slices_S96x64_S32x64_32_0)
        (extractStridedSlice S32x64 ![64, 0] W1 slices_S96x64_S32x64_64_0)
        (shapeCast S1x64 b1 shapeCasts_S64_S1x64) W2 (shapeCast S1x64 b2 shapeCasts_S64_S1x64) W3
        (shapeCast S1x32 b3 shapeCasts_S32_S1x32)
      = netArr a1 a2 bd W1 b1 W2 b2 W3 b3 := by
  funext i
  unfold Blocks.blockNet netArr net
  rw [← edgeRow3_eq]
  have e0 : (fun (k : Fin 32) (e : Fin 64) => extractStridedSlice S32x64 ![0, 0] W1 slices_S96x64_S32x64_0_0 (ix2 k e))
      = stretch0 (fun q e => W1 (ix2 q e)) :=
    funext fun k => funext fun e => slice_apply W1 0 _ k e _ (Nat.zero_add _).symm
  have e1 : (fun (k : Fin 32) (e : Fin 64) => extractStridedSlice S32x64 ![32, 0] W1 slices_S96x64_S32x64_32_0 (ix2 k e))
      = stretch1 (fun q e => W1 (ix2 q e)) :=
    funext fun k => funext fun e => slice_apply W1 32 _ k e _ rfl
  have e2 : (fun (k : Fin 32) (e : Fin 64) => extractStridedSlice S32x64 ![64, 0] W1 slices_S96x64_S32x64_64_0 (ix2 k e))
      = stretch2 (fun q e => W1 (ix2 q e)) :=
    funext fun k => funext fun e => slice_apply W1 64 _ k e _ rfl
  have eb1 : (fun e : Fin 64 => shapeCast S1x64 b1 shapeCasts_S64_S1x64 (ix2 0 e)) = fun e => b1 (ix1 e) :=
    funext fun e => shapeCast_a_1a_apply b1 shapeCasts_S64_S1x64 0 e
  have eb2 : (fun e : Fin 64 => shapeCast S1x64 b2 shapeCasts_S64_S1x64 (ix2 0 e)) = fun e => b2 (ix1 e) :=
    funext fun e => shapeCast_a_1a_apply b2 shapeCasts_S64_S1x64 0 e
  have eb3 : (fun e : Fin 32 => shapeCast S1x32 b3 shapeCasts_S32_S1x32 (ix2 0 e)) = fun e => b3 (ix1 e) :=
    funext fun e => shapeCast_a_1a_apply b3 shapeCasts_S32_S1x32 0 e
  rw [e0, e1, e2, eb1, eb2, eb3]

variable (m : (ℓ : Loc nD τ sig) → Buf (Elt Ideal) ℓ) (ρ : Dev nD → PrngReg)

/-- The kernel's result array as a function of the argument arrays. -/
def result (c : Dev nD) : S1600000x32.Idx → EReal :=
  netArr (HostSide.take (m ((c : Thread nD τ).loc main_arg3)) (m ((c : Thread nD τ).loc main_arg1))) (HostSide.take (m ((c : Thread nD τ).loc main_arg3)) (m ((c : Thread nD τ).loc main_arg2)))
    (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- After the run the result array is that function. -/
theorem final (c : Dev nD) : (dats m 0 c).arrAt 11 cfg0.N = result m c := by
  rw [Blocks.final m c, HostSide.V_main_v0 m c, HostSide.V_main_v1 m c, V_main_arg0 m c, HostSide.V_main_v2 m c,
    HostSide.V_main_v3 m c, HostSide.V_main_v4 m c, HostSide.V_main_v5 m c, V_main_arg6 m c, HostSide.V_main_v6 m c,
    V_main_arg8 m c, HostSide.V_main_v7 m c]
  exact blockNet_slices _ _ _ _ _ _ _ _ _

/-- Every weakly fair execution of the kernel's program terminates with the result array at that function of the
    arguments, and the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Final

end
-- ==== Proof.RefRun.lean ====
/-
  The reference program's run, read back.

  The reference is a straight line of 73 array operations: the two gathers of atom rows (23 operations each: the wrap of
  negative row numbers, the range test, the gather, the fill), the three rows laid end to end, and three dense layers,
  the first two followed by the leaky rectifier. Every weakly fair execution of it terminates with the result buffer at
  the operations' composed value of the argument arrays, and the arguments unchanged. The composed value is named
  'refNet' of the two gathered arrays, so that later steps read it layer by layer.
-/
import proofs.«107505_j54090818126503_1_alg».proof.Proof.Gen.ReferenceIdeal
import proofs.«107505_j54090818126503_1_alg».proof.Proof.TakeRows
import Idealize.ShloMosaic.Lib.StableHlo.Run
import Idealize.ShloMosaic.Lib.Pipeline.Regions
import proofs.«107505_j54090818126503_1_alg».proof.Proof.LibAfterStages

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.EdgeNet (takeRows)

variable {F : FTy → Type} [FloatOps F]

/-- The first gather's 23 operations, over its own buffers. -/
abbrev takeOps0 : List (HloOp τ sig (Elt F)) :=
  [
    TRef.nullary main_call0.c (constantI S_ 32 0#32),
    TRef.unary main_call0.c main_call0.v0 (broadcastInDim S1600000 ![] bcast_S_S1600000),
    TRef.binary (.of main_arg1 : TRef sig ⟨S1600000, .i32⟩) main_call0.v0 main_call0.v1 (cmpi .slt),
    TRef.nullary main_call0.c_0 (constantI S_ 32 50000#32),
    TRef.unary main_call0.c_0 main_call0.v2 (broadcastInDim S1600000 ![] bcast_S_S1600000),
    TRef.binary (.of main_arg1 : TRef sig ⟨S1600000, .i32⟩) main_call0.v2 main_call0.v3 addi,
    TRef.ternary main_call0.v1 main_call0.v3 (.of main_arg1 : TRef sig ⟨S1600000, .i32⟩) main_call0.call0.v0 select,
    TRef.unary main_call0.call0.v0 main_call0.v5 (broadcastInDim S1600000x1 ![0] bcast_S1600000_S1600000x1_0),
    TRef.nullary main_call0.c_1 (constantI S1 32 49999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg3 : TRef sig ⟨S50000x32, .f32⟩) main_call0.v5 main_call0.v13 (fun x i => Host.gather gather_S50000x32_S1600000x1_S1600000x32_1_0_n_n_0_1_132 x i),
    TRef.unary main_call0.v12 main_call0.v14 (broadcastInDim S1600000x32 ![0] bcast_S1600000_S1600000x32_0),
    TRef.nullary main_call0.cst (constant S_ .f32 0x7FC00000#32),
    TRef.unary main_call0.cst main_call0.v15 (broadcastInDim S1600000x32 ![] bcast_S_S1600000x32),
    TRef.ternary main_call0.v14 main_call0.v13 main_call0.v15 main_call0.v16 select ]

/-- The second gather's 23 operations. -/
abbrev takeOps1 : List (HloOp τ sig (Elt F)) :=
  [
    TRef.nullary main_call1.c (constantI S_ 32 0#32),
    TRef.unary main_call1.c main_call1.v0 (broadcastInDim S1600000 ![] bcast_S_S1600000),
    TRef.binary (.of main_arg2 : TRef sig ⟨S1600000, .i32⟩) main_call1.v0 main_call1.v1 (cmpi .slt),
    TRef.nullary main_call1.c_0 (constantI S_ 32 50000#32),
    TRef.unary main_call1.c_0 main_call1.v2 (broadcastInDim S1600000 ![] bcast_S_S1600000),
    TRef.binary (.of main_arg2 : TRef sig ⟨S1600000, .i32⟩) main_call1.v2 main_call1.v3 addi,
    TRef.ternary main_call1.v1 main_call1.v3 (.of main_arg2 : TRef sig ⟨S1600000, .i32⟩) main_call1.call0.v0 select,
    TRef.unary main_call1.call0.v0 main_call1.v5 (broadcastInDim S1600000x1 ![0] bcast_S1600000_S1600000x1_0),
    TRef.nullary main_call1.c_1 (constantI S1 32 49999#32),
    TRef.nullary main_call1.c_2 (constantI S_ 32 0#32),
    TRef.unary main_call1.c_2 main_call1.v6 (broadcastInDim S1600000x1 ![] bcast_S_S1600000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1600000x1 ![0, 1] bcast_S1x1_S1600000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1600000x1_S1600000_d1 h_S_),
    TRef.binary (.of main_arg3 : TRef sig ⟨S50000x32, .f32⟩) main_call1.v5 main_call1.v13 (fun x i => Host.gather gather_S50000x32_S1600000x1_S1600000x32_1_0_n_n_0_1_132 x i),
    TRef.unary main_call1.v12 main_call1.v14 (broadcastInDim S1600000x32 ![0] bcast_S1600000_S1600000x32_0),
    TRef.nullary main_call1.cst (constant S_ .f32 0x7FC00000#32),
    TRef.unary main_call1.cst main_call1.v15 (broadcastInDim S1600000x32 ![] bcast_S_S1600000x32),
    TRef.ternary main_call1.v14 main_call1.v13 main_call1.v15 main_call1.v16 select ]

/-- The 27 operations after the gathers: the rows laid end to end and the three layers. -/
abbrev tailOps : List (HloOp τ sig (Elt F)) :=
  [
    nary ![main_v0, main_v1, main_arg0] main_v2 (fun u => concatenate S1600000x96 1 [⟨S1600000x32, u 0⟩, ⟨S1600000x32, u 1⟩, ⟨S1600000x32, u 2⟩] concatenates_S1600000x32_S1600000x32_S1600000x32_S1600000x96_d1),
    binary main_v2 main_arg4 main_v3 ((fun l r => Host.dotGeneral dot_S1600000x96_S96x64_S1600000x64_1_0_0_1_n_n none l r) : (⟨S1600000x96, .f32⟩ : BufTy).Contents (Elt F) → (⟨S96x64, .f32⟩ : BufTy).Contents (Elt F) → (⟨S1600000x64, .f32⟩ : BufTy).Contents (Elt F)),
    unary main_arg5 main_v4 (broadcastInDim S1x64 ![1] bcast_S64_S1x64_1 : (⟨S64, .f32⟩ : BufTy).Contents (Elt F) → (⟨S1x64, .f32⟩ : BufTy).Contents (Elt F)),
    unary main_v4 main_v5 (broadcastInDim S1600000x64 ![0, 1] bcast_S1x64_S1600000x64_0_1 : (⟨S1x64, .f32⟩ : BufTy).Contents (Elt F) → (⟨S1600000x64, .f32⟩ : BufTy).Contents (Elt F)),
    binary main_v3 main_v5 main_v6 (addf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v7 (broadcastInDim S1600000x64 ![] bcast_S_S1600000x64 : (⟨S_, .f32⟩ : BufTy).Contents (Elt F) → (⟨S1600000x64, .f32⟩ : BufTy).Contents (Elt F)),
    binary main_v6 main_v7 main_v8 (cmpf .oge : (⟨S1600000x64, .f32⟩ : BufTy).Contents (Elt F) → (⟨S1600000x64, .f32⟩ : BufTy).Contents (Elt F) → (⟨S1600000x64, .i1⟩ : BufTy).Contents (Elt F)),
    nullary main_cst_0 (constant S_ .f32 0x3E6AAAAB#32),
    unary main_cst_0 main_v9 (broadcastInDim S1600000x64 ![] bcast_S_S1600000x64 : (⟨S_, .f32⟩ : BufTy).Contents (Elt F) → (⟨S1600000x64, .f32⟩ : BufTy).Contents (Elt F)),
    binary main_v9 main_v6 main_v10 (mulf : (⟨S1600000x64, .f32⟩ : BufTy).Contents (Elt F) → (⟨S1600000x64, .f32⟩ : BufTy).Contents (Elt F) → (⟨S1600000x64, .f32⟩ : BufTy).Contents (Elt F)),
    TRef.ternary (.of main_v8 : TRef sig ⟨S1600000x64, .i1⟩) (.of main_v6 : TRef sig ⟨S1600000x64, .f32⟩) (.of main_v10 : TRef sig ⟨S1600000x64, .f32⟩) main_call2.v0 select,
    binary main_v11 main_arg6 main_v12 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg7 main_v13 (broadcastInDim S1x64 ![1] bcast_S64_S1x64_1 : (⟨S64, .f32⟩ : BufTy).Contents (Elt F) → (⟨S1x64, .f32⟩ : BufTy).Contents (Elt F)),
    unary main_v13 main_v14 (broadcastInDim S1600000x64 ![0, 1] bcast_S1x64_S1600000x64_0_1 : (⟨S1x64, .f32⟩ : BufTy).Contents (Elt F) → (⟨S1600000x64, .f32⟩ : BufTy).Contents (Elt F)),
    binary main_v12 main_v14 main_v15 (addf : (⟨S1600000x64, .f32⟩ : BufTy).Contents (Elt F) → (⟨S1600000x64, .f32⟩ : BufTy).Contents (Elt F) → (⟨S1600000x64, .f32⟩ : BufTy).Contents (Elt F)),
    nullary main_cst_1 (constant S_ .f32 0x00000000#32),
    unary main_cst_1 main_v16 (broadcastInDim S1600000x64 ![] bcast_S_S1600000x64 : (⟨S_, .f32⟩ : BufTy).Contents (Elt F) → (⟨S1600000x64, .f32⟩ : BufTy).Contents (Elt F)),
    binary main_v15 main_v16 main_v17 (cmpf .oge : (⟨S1600000x64, .f32⟩ : BufTy).Contents (Elt F) → (⟨S1600000x64, .f32⟩ : BufTy).Contents (Elt F) → (⟨S1600000x64, .i1⟩ : BufTy).Contents (Elt F)),
    nullary main_cst_2 (constant S_ .f32 0x3E6AAAAB#32),
    unary main_cst_2 main_v18 (broadcastInDim S1600000x64 ![] bcast_S_S1600000x64 : (⟨S_, .f32⟩ : BufTy).Contents (Elt F) → (⟨S1600000x64, .f32⟩ : BufTy).Contents (Elt F)),
    binary main_v18 main_v15 main_v19 (mulf : (⟨S1600000x64, .f32⟩ : BufTy).Contents (Elt F) → (⟨S1600000x64, .f32⟩ : BufTy).Contents (Elt F) → (⟨S1600000x64, .f32⟩ : BufTy).Contents (Elt F)),
    TRef.ternary (.of main_v17 : TRef sig ⟨S1600000x64, .i1⟩) (.of main_v15 : TRef sig ⟨S1600000x64, .f32⟩) (.of main_v19 : TRef sig ⟨S1600000x64, .f32⟩) main_call3.v0 select,
    binary main_v20 main_arg8 main_v21 ((fun l r => Host.dotGeneral dot_S1600000x64_S64x32_S1600000x32_1_0_0_1_n_n none l r) : (⟨S1600000x64, .f32⟩ : BufTy).Contents (Elt F) → (⟨S64x32, .f32⟩ : BufTy).Contents (Elt F) → (⟨S1600000x32, .f32⟩ : BufTy).Contents (Elt F)),
    unary main_arg9 main_v22 (broadcastInDim S1x32 ![1] bcast_S32_S1x32_1 : (⟨S32, .f32⟩ : BufTy).Contents (Elt F) → (⟨S1x32, .f32⟩ : BufTy).Contents (Elt F)),
    unary main_v22 main_v23 (broadcastInDim S1600000x32 ![0, 1] bcast_S1x32_S1600000x32_0_1 : (⟨S1x32, .f32⟩ : BufTy).Contents (Elt F) → (⟨S1600000x32, .f32⟩ : BufTy).Contents (Elt F)),
    binary main_v21 main_v23 main_v24 (addf : (⟨S1600000x32, .f32⟩ : BufTy).Contents (Elt F) → (⟨S1600000x32, .f32⟩ : BufTy).Contents (Elt F) → (⟨S1600000x32, .f32⟩ : BufTy).Contents (Elt F)) ]

/-- All 73, in order. -/
abbrev ops : List (HloOp τ sig (Elt F)) := takeOps0 ++ (takeOps1 ++ tailOps)

/-- The program is the three stretches one after the other: each called function's body is its stretch. The two sides
    unfold to the same sequence of steps. -/
theorem main_chain (c : Dev nD) : main (F := F) c = Pipeline.chain [seq takeOps0, seq takeOps1, seq tailOps] := by
  chain_rfl

/-- So it is the straight line of all 73. -/
theorem main_eq (c : Dev nD) : main (F := F) c = seq ops := by
  rw [main_chain c]
  simp only [ops, seq_append, Pipeline.chain_cons, Pipeline.chain_nil, bind_pure_unit]

theorem scopedRefs_eq : (Finset.univ.filter fun b : Ref sig .tc => b.isScoped) = ∅ := by decide
theorem scopedSems_eq : (Finset.univ.filter fun sm : SemLoc sig => sm.isScoped .tc) = ∅ := by decide

theorem takeOps0_sub : (takeOps0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem takeOps1_sub : (takeOps1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem tailOps_sub : (tailOps : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    rcases List.mem_append.mp h with h | h
    · exact List.forall_iff_forall_mem.mp takeOps0_sub op h
    · rcases List.mem_append.mp h with h | h
      · exact List.forall_iff_forall_mem.mp takeOps1_sub op h
      · exact List.forall_iff_forall_mem.mp tailOps_sub op h

theorem takeOps0_fresh : (takeOps0 : List (HloOp τ sig (Elt F))).Forall fun op => op.fresh = ∅ := by
  simp only [List.Forall]; repeat' constructor
theorem takeOps1_fresh : (takeOps1 : List (HloOp τ sig (Elt F))).Forall fun op => op.fresh = ∅ := by
  simp only [List.Forall]; repeat' constructor
theorem tailOps_fresh : (tailOps : List (HloOp τ sig (Elt F))).Forall fun op => op.fresh = ∅ := by
  simp only [List.Forall]; repeat' constructor

/-- No operation allocates: each determines its results. -/
theorem ops_fresh : ∀ op ∈ (ops : List (HloOp τ sig (Elt F))), op.fresh = ∅ := fun op h => by
  rcases List.mem_append.mp h with h | h
  · exact List.forall_iff_forall_mem.mp takeOps0_fresh op h
  · rcases List.mem_append.mp h with h | h
    · exact List.forall_iff_forall_mem.mp takeOps1_fresh op h
    · exact List.forall_iff_forall_mem.mp tailOps_fresh op h

/-- Every execution ends with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The three dense layers on the rows laid end to end, as array operations: what the program computes from the two
    gathered arrays, the bond array and the weights. -/
def refNet (a1 a2 bd : (⟨S1600000x32, .f32⟩ : BufTy).Contents (Elt F)) (W1 : (⟨S96x64, .f32⟩ : BufTy).Contents (Elt F))
    (b1 : (⟨S64, .f32⟩ : BufTy).Contents (Elt F)) (W2 : (⟨S64x64, .f32⟩ : BufTy).Contents (Elt F))
    (b2 : (⟨S64, .f32⟩ : BufTy).Contents (Elt F)) (W3 : (⟨S64x32, .f32⟩ : BufTy).Contents (Elt F))
    (b3 : (⟨S32, .f32⟩ : BufTy).Contents (Elt F)) : (⟨S1600000x32, .f32⟩ : BufTy).Contents (Elt F) :=
  let z1 : FVec F S1600000x64 .f32 :=
    addf (Host.dotGeneral dot_S1600000x96_S96x64_S1600000x64_1_0_0_1_n_n none
        (concatenate S1600000x96 1 [⟨S1600000x32, a1⟩, ⟨S1600000x32, a2⟩, ⟨S1600000x32, bd⟩]
          concatenates_S1600000x32_S1600000x32_S1600000x32_S1600000x96_d1) W1)
      (broadcastInDim S1600000x64 ![0, 1] bcast_S1x64_S1600000x64_0_1 (broadcastInDim S1x64 ![1] bcast_S64_S1x64_1 b1))
  let h1 : FVec F S1600000x64 .f32 :=
    select (cmpf .oge z1 (broadcastInDim S1600000x64 ![] bcast_S_S1600000x64 (constant S_ .f32 0x00000000#32))) z1
      (mulf (broadcastInDim S1600000x64 ![] bcast_S_S1600000x64 (constant S_ .f32 0x3E6AAAAB#32)) z1)
  let z2 : FVec F S1600000x64 .f32 :=
    addf (Host.dotGeneral dot_S1600000x64_S64x64_S1600000x64_1_0_0_1_n_n none h1 W2)
      (broadcastInDim S1600000x64 ![0, 1] bcast_S1x64_S1600000x64_0_1 (broadcastInDim S1x64 ![1] bcast_S64_S1x64_1 b2))
  let h2 : FVec F S1600000x64 .f32 :=
    select (cmpf .oge z2 (broadcastInDim S1600000x64 ![] bcast_S_S1600000x64 (constant S_ .f32 0x00000000#32))) z2
      (mulf (broadcastInDim S1600000x64 ![] bcast_S_S1600000x64 (constant S_ .f32 0x3E6AAAAB#32)) z2)
  addf (Host.dotGeneral dot_S1600000x64_S64x32_S1600000x32_1_0_0_1_n_n none h2 W3)
    (broadcastInDim S1600000x32 ![0, 1] bcast_S1x32_S1600000x32_0_1 (broadcastInDim S1x32 ![1] bcast_S32_S1x32_1 b3))

/-- A gather of atom rows with this program's shape facts. -/
abbrev take (atoms : (⟨S50000x32, .f32⟩ : BufTy).Contents (Elt F)) (idx : (⟨S1600000, .i32⟩ : BufTy).Contents (Elt F)) :
    (⟨S1600000x32, .f32⟩ : BufTy).Contents (Elt F) :=
  takeRows bcast_S_S1600000 bcast_S1600000_S1600000x1_0 bcast_S_S1600000x1 bcast_S1_S1x1_1 bcast_S1x1_S1600000x1_0_1
    reducesTo_S1600000x1_S1600000_d1 h_S_ bcast_S1600000_S1600000x32_0 bcast_S_S1600000x32
    gather_S50000x32_S1600000x1_S1600000x32_1_0_n_n_0_1_132 atoms idx

end Cert.ReferenceIdeal.RefRun

end
-- ==== Proof.RefStages.lean ====
/-
  The reference's run, stretch by stretch.

  The 73 operations are three stretches: the first gather, the second gather, and the layers. Each stretch's result
  buffer is read as the stretch's value of what the stretch finds; a buffer a stretch does not write comes through it
  unchanged. Put together: the result buffer ends at the three layers of the two gathers of the arguments, and no
  argument is written.
-/
import proofs.«107505_j54090818126503_1_alg».proof.Proof.RefRun
import proofs.«107505_j54090818126503_1_alg».proof.Proof.LibTypedRefs

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each stretch's result, and what each stretch leaves alone -/

-- the reductions and gathers are folds over 1.6 million rows: they are compared as they stand, never opened
attribute [local irreducible] Host.reduce Host.gather concatenate

/-- The first gather's stretch leaves the gathered rows in its result buffer. -/
theorem take0_val (V : Valuation τ sig (Elt F)) :
    after takeOps0 V (main_v0 : DevRef τ sig) = take (V (main_arg3 : DevRef τ sig)) (V (main_arg1 : DevRef τ sig)) := by
  after_results_simp
  simp only [TRef.ofBuf_toBuf]
  rfl

/-- The second gather's stretch likewise. -/
theorem take1_val (V : Valuation τ sig (Elt F)) :
    after takeOps1 V (main_v1 : DevRef τ sig) = take (V (main_arg3 : DevRef τ sig)) (V (main_arg2 : DevRef τ sig)) := by
  after_results_simp
  simp only [TRef.ofBuf_toBuf]
  rfl

/-- The last stretch leaves the three layers of what it finds in the two gathers' buffers and the arguments. -/
theorem tail_val (V : Valuation τ sig (Elt F)) :
    after tailOps V (main_v24 : DevRef τ sig)
      = refNet (V (main_v0 : DevRef τ sig)) (V (main_v1 : DevRef τ sig))
          (V (main_arg0 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

theorem L0_keeps_arg0 (V : Valuation τ sig (Elt F)) : after takeOps0 V (main_arg0 : DevRef τ sig) = V (main_arg0 : DevRef τ sig) := by kept_through [takeOps0]
theorem L0_keeps_arg1 (V : Valuation τ sig (Elt F)) : after takeOps0 V (main_arg1 : DevRef τ sig) = V (main_arg1 : DevRef τ sig) := by kept_through [takeOps0]
theorem L0_keeps_arg2 (V : Valuation τ sig (Elt F)) : after takeOps0 V (main_arg2 : DevRef τ sig) = V (main_arg2 : DevRef τ sig) := by kept_through [takeOps0]
theorem L0_keeps_arg3 (V : Valuation τ sig (Elt F)) : after takeOps0 V (main_arg3 : DevRef τ sig) = V (main_arg3 : DevRef τ sig) := by kept_through [takeOps0]
theorem L0_keeps_arg4 (V : Valuation τ sig (Elt F)) : after takeOps0 V (main_arg4 : DevRef τ sig) = V (main_arg4 : DevRef τ sig) := by kept_through [takeOps0]
theorem L0_keeps_arg5 (V : Valuation τ sig (Elt F)) : after takeOps0 V (main_arg5 : DevRef τ sig) = V (main_arg5 : DevRef τ sig) := by kept_through [takeOps0]
theorem L0_keeps_arg6 (V : Valuation τ sig (Elt F)) : after takeOps0 V (main_arg6 : DevRef τ sig) = V (main_arg6 : DevRef τ sig) := by kept_through [takeOps0]
theorem L0_keeps_arg7 (V : Valuation τ sig (Elt F)) : after takeOps0 V (main_arg7 : DevRef τ sig) = V (main_arg7 : DevRef τ sig) := by kept_through [takeOps0]
theorem L0_keeps_arg8 (V : Valuation τ sig (Elt F)) : after takeOps0 V (main_arg8 : DevRef τ sig) = V (main_arg8 : DevRef τ sig) := by kept_through [takeOps0]
theorem L0_keeps_arg9 (V : Valuation τ sig (Elt F)) : after takeOps0 V (main_arg9 : DevRef τ sig) = V (main_arg9 : DevRef τ sig) := by kept_through [takeOps0]
theorem L1_keeps_arg0 (V : Valuation τ sig (Elt F)) : after takeOps1 V (main_arg0 : DevRef τ sig) = V (main_arg0 : DevRef τ sig) := by kept_through [takeOps1]
theorem L1_keeps_arg1 (V : Valuation τ sig (Elt F)) : after takeOps1 V (main_arg1 : DevRef τ sig) = V (main_arg1 : DevRef τ sig) := by kept_through [takeOps1]
theorem L1_keeps_arg2 (V : Valuation τ sig (Elt F)) : after takeOps1 V (main_arg2 : DevRef τ sig) = V (main_arg2 : DevRef τ sig) := by kept_through [takeOps1]
theorem L1_keeps_arg3 (V : Valuation τ sig (Elt F)) : after takeOps1 V (main_arg3 : DevRef τ sig) = V (main_arg3 : DevRef τ sig) := by kept_through [takeOps1]
theorem L1_keeps_arg4 (V : Valuation τ sig (Elt F)) : after takeOps1 V (main_arg4 : DevRef τ sig) = V (main_arg4 : DevRef τ sig) := by kept_through [takeOps1]
theorem L1_keeps_arg5 (V : Valuation τ sig (Elt F)) : after takeOps1 V (main_arg5 : DevRef τ sig) = V (main_arg5 : DevRef τ sig) := by kept_through [takeOps1]
theorem L1_keeps_arg6 (V : Valuation τ sig (Elt F)) : after takeOps1 V (main_arg6 : DevRef τ sig) = V (main_arg6 : DevRef τ sig) := by kept_through [takeOps1]
theorem L1_keeps_arg7 (V : Valuation τ sig (Elt F)) : after takeOps1 V (main_arg7 : DevRef τ sig) = V (main_arg7 : DevRef τ sig) := by kept_through [takeOps1]
theorem L1_keeps_arg8 (V : Valuation τ sig (Elt F)) : after takeOps1 V (main_arg8 : DevRef τ sig) = V (main_arg8 : DevRef τ sig) := by kept_through [takeOps1]
theorem L1_keeps_arg9 (V : Valuation τ sig (Elt F)) : after takeOps1 V (main_arg9 : DevRef τ sig) = V (main_arg9 : DevRef τ sig) := by kept_through [takeOps1]
theorem T_keeps_arg0 (V : Valuation τ sig (Elt F)) : after tailOps V (main_arg0 : DevRef τ sig) = V (main_arg0 : DevRef τ sig) := by kept_through [tailOps]
theorem T_keeps_arg1 (V : Valuation τ sig (Elt F)) : after tailOps V (main_arg1 : DevRef τ sig) = V (main_arg1 : DevRef τ sig) := by kept_through [tailOps]
theorem T_keeps_arg2 (V : Valuation τ sig (Elt F)) : after tailOps V (main_arg2 : DevRef τ sig) = V (main_arg2 : DevRef τ sig) := by kept_through [tailOps]
theorem T_keeps_arg3 (V : Valuation τ sig (Elt F)) : after tailOps V (main_arg3 : DevRef τ sig) = V (main_arg3 : DevRef τ sig) := by kept_through [tailOps]
theorem T_keeps_arg4 (V : Valuation τ sig (Elt F)) : after tailOps V (main_arg4 : DevRef τ sig) = V (main_arg4 : DevRef τ sig) := by kept_through [tailOps]
theorem T_keeps_arg5 (V : Valuation τ sig (Elt F)) : after tailOps V (main_arg5 : DevRef τ sig) = V (main_arg5 : DevRef τ sig) := by kept_through [tailOps]
theorem T_keeps_arg6 (V : Valuation τ sig (Elt F)) : after tailOps V (main_arg6 : DevRef τ sig) = V (main_arg6 : DevRef τ sig) := by kept_through [tailOps]
theorem T_keeps_arg7 (V : Valuation τ sig (Elt F)) : after tailOps V (main_arg7 : DevRef τ sig) = V (main_arg7 : DevRef τ sig) := by kept_through [tailOps]
theorem T_keeps_arg8 (V : Valuation τ sig (Elt F)) : after tailOps V (main_arg8 : DevRef τ sig) = V (main_arg8 : DevRef τ sig) := by kept_through [tailOps]
theorem T_keeps_arg9 (V : Valuation τ sig (Elt F)) : after tailOps V (main_arg9 : DevRef τ sig) = V (main_arg9 : DevRef τ sig) := by kept_through [tailOps]
theorem L1_keeps_v0 (V : Valuation τ sig (Elt F)) : after takeOps1 V (main_v0 : DevRef τ sig) = V (main_v0 : DevRef τ sig) := by kept_through [takeOps1]

/-- The fold at the result buffer is the network of the two gathers of the arguments. -/
theorem out_eq (V : Valuation τ sig (Elt F)) :
    after ops V (main_v24 : DevRef τ sig)
      = refNet (take (V (main_arg3 : DevRef τ sig)) (V (main_arg1 : DevRef τ sig)))
          (take (V (main_arg3 : DevRef τ sig)) (V (main_arg2 : DevRef τ sig)))
          (V (main_arg0 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [show (ops : List (HloOp τ sig (Elt F))) = takeOps0 ++ (takeOps1 ++ tailOps) from rfl, after_append, after_append,
    tail_val, L1_keeps_v0, take0_val, take1_val, L0_keeps_arg3, L0_keeps_arg2,
    L1_keeps_arg0, L0_keeps_arg0, L1_keeps_arg4, L0_keeps_arg4, L1_keeps_arg5, L0_keeps_arg5, L1_keeps_arg6, L0_keeps_arg6,
    L1_keeps_arg7, L0_keeps_arg7, L1_keeps_arg8, L0_keeps_arg8, L1_keeps_arg9, L0_keeps_arg9]

/-! No operation writes an argument. -/
theorem arg0_kept (V : Valuation τ sig (Elt F)) : after ops V (main_arg0 : DevRef τ sig) = V (main_arg0 : DevRef τ sig) := by
  rw [show (ops : List (HloOp τ sig (Elt F))) = takeOps0 ++ (takeOps1 ++ tailOps) from rfl, after_append, after_append,
    T_keeps_arg0, L1_keeps_arg0, L0_keeps_arg0]
theorem arg1_kept (V : Valuation τ sig (Elt F)) : after ops V (main_arg1 : DevRef τ sig) = V (main_arg1 : DevRef τ sig) := by
  rw [show (ops : List (HloOp τ sig (Elt F))) = takeOps0 ++ (takeOps1 ++ tailOps) from rfl, after_append, after_append,
    T_keeps_arg1, L1_keeps_arg1, L0_keeps_arg1]
theorem arg2_kept (V : Valuation τ sig (Elt F)) : after ops V (main_arg2 : DevRef τ sig) = V (main_arg2 : DevRef τ sig) := by
  rw [show (ops : List (HloOp τ sig (Elt F))) = takeOps0 ++ (takeOps1 ++ tailOps) from rfl, after_append, after_append,
    T_keeps_arg2, L1_keeps_arg2, L0_keeps_arg2]
theorem arg3_kept (V : Valuation τ sig (Elt F)) : after ops V (main_arg3 : DevRef τ sig) = V (main_arg3 : DevRef τ sig) := by
  rw [show (ops : List (HloOp τ sig (Elt F))) = takeOps0 ++ (takeOps1 ++ tailOps) from rfl, after_append, after_append,
    T_keeps_arg3, L1_keeps_arg3, L0_keeps_arg3]
theorem arg4_kept (V : Valuation τ sig (Elt F)) : after ops V (main_arg4 : DevRef τ sig) = V (main_arg4 : DevRef τ sig) := by
  rw [show (ops : List (HloOp τ sig (Elt F))) = takeOps0 ++ (takeOps1 ++ tailOps) from rfl, after_append, after_append,
    T_keeps_arg4, L1_keeps_arg4, L0_keeps_arg4]
theorem arg5_kept (V : Valuation τ sig (Elt F)) : after ops V (main_arg5 : DevRef τ sig) = V (main_arg5 : DevRef τ sig) := by
  rw [show (ops : List (HloOp τ sig (Elt F))) = takeOps0 ++ (takeOps1 ++ tailOps) from rfl, after_append, after_append,
    T_keeps_arg5, L1_keeps_arg5, L0_keeps_arg5]
theorem arg6_kept (V : Valuation τ sig (Elt F)) : after ops V (main_arg6 : DevRef τ sig) = V (main_arg6 : DevRef τ sig) := by
  rw [show (ops : List (HloOp τ sig (Elt F))) = takeOps0 ++ (takeOps1 ++ tailOps) from rfl, after_append, after_append,
    T_keeps_arg6, L1_keeps_arg6, L0_keeps_arg6]
theorem arg7_kept (V : Valuation τ sig (Elt F)) : after ops V (main_arg7 : DevRef τ sig) = V (main_arg7 : DevRef τ sig) := by
  rw [show (ops : List (HloOp τ sig (Elt F))) = takeOps0 ++ (takeOps1 ++ tailOps) from rfl, after_append, after_append,
    T_keeps_arg7, L1_keeps_arg7, L0_keeps_arg7]
theorem arg8_kept (V : Valuation τ sig (Elt F)) : after ops V (main_arg8 : DevRef τ sig) = V (main_arg8 : DevRef τ sig) := by
  rw [show (ops : List (HloOp τ sig (Elt F))) = takeOps0 ++ (takeOps1 ++ tailOps) from rfl, after_append, after_append,
    T_keeps_arg8, L1_keeps_arg8, L0_keeps_arg8]
theorem arg9_kept (V : Valuation τ sig (Elt F)) : after ops V (main_arg9 : DevRef τ sig) = V (main_arg9 : DevRef τ sig) := by
  rw [show (ops : List (HloOp τ sig (Elt F))) = takeOps0 ++ (takeOps1 ++ tailOps) from rfl, after_append, after_append,
    T_keeps_arg9, L1_keeps_arg9, L0_keeps_arg9]

/-- On every device: every weakly fair execution terminates with the result at the network of the two gathers of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = refNet (take (m ((c.tc : Thread nD τ).loc main_arg3)) (m ((c.tc : Thread nD τ).loc main_arg1)))
            (take (m ((c.tc : Thread nD τ).loc main_arg3)) (m ((c.tc : Thread nD τ).loc main_arg2)))
            (m ((c.tc : Thread nD τ).loc main_arg0)) (m ((c.tc : Thread nD τ).loc main_arg4))
            (m ((c.tc : Thread nD τ).loc main_arg5)) (m ((c.tc : Thread nD τ).loc main_arg6))
            (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v24).trans (out_eq _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _)⟩)
    (run_main m ρ)

end Cert.ReferenceIdeal.RefRun

end
-- ==== Proof.LibRowLayout.lean ====
/-
  A vector laid along the rows of a matrix, a scalar spread over a matrix, and a flat array read as rows — each
  read at an index.

  A length-b vector v becomes an [a, b] matrix whose every row is v: the kernel does it by a cast to [1, b] and a
  broadcast, the host by two broadcasts along named axes; either way entry (p, c) is v(c). A scalar spread over any
  shape reads the scalar everywhere. A flat array of a*b entries read as a rows of b (or the other way round) keeps
  the row-major position: entry (r, l) of the matrix is entry r*b + l of the flat array.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx

variable {α : Type} {a b : ℕ}

/-- The kernel's form: v cast to one row and that row broadcast over a rows reads v(c) at (p, c). -/
theorem rowVector_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The host's form: v broadcast along axis 1 into one row, the row broadcast along both axes over a rows, reads
    v(c) at (p, c). -/
theorem hostRowVector_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- A scalar broadcast over a matrix reads the scalar at every index. -/
theorem hostScalar_apply (v : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ ![] h v j = v ix0 :=
  broadcastInDim_apply ![] h v j ix0 fun ax => ax.elim0

variable {N : ℕ}

/-- A flat array cast to a rows of b reads, at (r, l), the flat entry at position r*b + l. -/
theorem rows_of_flat_apply (v : (⟨1, ![N]⟩ : Shape).Idx → α) (h : (⟨1, ![N]⟩ : Shape).ShapeCasts ⟨2, ![a, b]⟩)
    (r : Fin a) (l : Fin b) (q : Fin N) (hq : q.val = r.val * b + l.val) :
    shapeCast ⟨2, ![a, b]⟩ v h (ix2 r l) = v (ix1 q) :=
  shapeCast_apply v h _ _ (by
    rw [Shape.rowMajor_val_two, Shape.rowMajor_val_one]
    exact hq)

/-- A matrix of a rows of b cast to a flat array reads, at position r*b + l, the entry (r, l). -/
theorem flat_of_rows_apply (v : (⟨2, ![a, b]⟩ : Shape).Idx → α) (h : (⟨2, ![a, b]⟩ : Shape).ShapeCasts ⟨1, ![N]⟩)
    (r : Fin a) (l : Fin b) (q : Fin N) (hq : q.val = r.val * b + l.val) :
    shapeCast ⟨1, ![N]⟩ v h (ix1 q) = v (ix2 r l) :=
  shapeCast_apply v h _ _ (by
    rw [Shape.rowMajor_val_two, Shape.rowMajor_val_one]
    exact hq.symm)

end Cert.RowLayout

end
-- ==== Proof.LibHostDense.lean ====
/-
  A dense layer in the host's spelling, read at an index.

  The host multiplies an [a, n] array into an [n, k] weight with dot_general (contracting axis 1 with axis 0), lays the
  length-k bias along the rows by two broadcasts along named axes, and adds. On the extended reals entry (p, e) is the
  sum over q of x(p, q) * w(q, e), plus the bias's entry e. The host's leaky rectifier compares with a broadcast zero and
  chooses between the value and a broadcast slope times it; read at an index it is the scalar rectifier of the entry.
-/
import Idealize.ShloMosaic.PureOps.Ideal.Laws
import Idealize.ShloMosaic.Lib.ValueIdx
import Idealize.ShloMosaic.Lib.Pipeline.Value
import proofs.«107505_j54090818126503_1_alg».proof.Proof.LibLeakyLayer
import proofs.«107505_j54090818126503_1_alg».proof.Proof.LibRowLayout

noncomputable section

namespace Cert.HostDense

open Idealize.ShloMosaic Idealize.ShloMosaic.ValueIdx Cert.ColsMatmul Cert.LeakyLayer Cert.RowLayout

variable {a n k : ℕ}

/-- The host's product of rows against columns, at (p, e). -/
theorem hostCols_apply {φ₁ φ₂ : FTy} (wf : DotDims.WF ⟨2, ![a, n]⟩ ⟨2, ![n, k]⟩ ⟨2, ![a, k]⟩ [1] [0] [0] [1] [] [])
    (d : DotDims ⟨2, ![a, n]⟩ ⟨2, ![n, k]⟩ ⟨2, ![a, k]⟩) (hd : d = colsDims wf)
    (x : FVec Ideal ⟨2, ![a, n]⟩ φ₁) (w : FVec Ideal ⟨2, ![n, k]⟩ φ₂) (p : Fin a) (e : Fin k) :
    Host.dotGeneral d none x w (ix2 p e) = ∑ q : Fin n, x (ix2 p q) * w (ix2 q e) := by
  subst hd
  exact (Ideal.dotGeneral_apply (colsDims wf) none .single x w (ix2 p e)).trans (contraction_cols wf x w p e)

/-- The product plus the bias laid along the rows, at (p, e). -/
theorem hostDense_apply {φ₁ φ₂ : FTy} (wf : DotDims.WF ⟨2, ![a, n]⟩ ⟨2, ![n, k]⟩ ⟨2, ![a, k]⟩ [1] [0] [0] [1] [] [])
    (d : DotDims ⟨2, ![a, n]⟩ ⟨2, ![n, k]⟩ ⟨2, ![a, k]⟩) (hd : d = colsDims wf)
    (x : FVec Ideal ⟨2, ![a, n]⟩ φ₁) (w : FVec Ideal ⟨2, ![n, k]⟩ φ₂) (b : FVec Ideal ⟨1, ![k]⟩ .f32)
    (h1 : (⟨1, ![k]⟩ : Shape).BroadcastsInDim ⟨2, ![1, k]⟩ (![1] : Fin 1 → Fin 2))
    (h2 : (⟨2, ![1, k]⟩ : Shape).BroadcastsInDim ⟨2, ![a, k]⟩ (![0, 1] : Fin 2 → Fin 2)) (p : Fin a) (e : Fin k) :
    addf (Host.dotGeneral d none x w) (broadcastInDim ⟨2, ![a, k]⟩ ![0, 1] h2 (broadcastInDim ⟨2, ![1, k]⟩ ![1] h1 b)) (ix2 p e)
      = (∑ q : Fin n, x (ix2 p q) * w (ix2 q e)) + b (ix1 e) := by
  show Host.dotGeneral d none x w (ix2 p e)
      + broadcastInDim ⟨2, ![a, k]⟩ ![0, 1] h2 (broadcastInDim ⟨2, ![1, k]⟩ ![1] h1 b) (ix2 p e) = _
  rw [hostCols_apply wf d hd x w p e, hostRowVector_apply b h1 h2 p e]

/-- The host's rectifier at an index. -/
theorem hostLeaky_apply (sl : BitVec 32) (z : FVec Ideal ⟨2, ![a, k]⟩ .f32)
    (h : (⟨0, ![]⟩ : Shape).BroadcastsInDim ⟨2, ![a, k]⟩ (![] : Fin 0 → Fin 2)) (i : (⟨2, ![a, k]⟩ : Shape).Idx) :
    select (cmpf .oge z (broadcastInDim ⟨2, ![a, k]⟩ ![] h (constant ⟨0, ![]⟩ .f32 0x00000000#32))) z
        (mulf (broadcastInDim ⟨2, ![a, k]⟩ ![] h (constant ⟨0, ![]⟩ .f32 sl)) z) i
      = leaky sl (z i) := by
  show Scalar.select (FloatOps.cmpf (F := Ideal) (φ := .f32) .oge (z i)
        (broadcastInDim ⟨2, ![a, k]⟩ ![] h (constant (F := Ideal) ⟨0, ![]⟩ .f32 0x00000000#32) i)) (z i)
      (broadcastInDim ⟨2, ![a, k]⟩ ![] h (constant (F := Ideal) ⟨0, ![]⟩ .f32 sl) i * z i) = _
  rw [hostScalar_apply, hostScalar_apply]
  rfl

end Cert.HostDense

end
-- ==== Proof.RefValue.lean ====
/-
  The reference's result, entry by entry.

  Entry (r, j) of the reference's result is the network of edge r's row of 96: the three rows of 32 laid end to end,
  through the first two dense layers with their rectifiers and the third without. The concatenation along the columns
  reads, at column q, the first array for q < 32, the second for 32 ≤ q < 64 and the third from 64 on.
-/
import proofs.«107505_j54090818126503_1_alg».proof.Proof.RefRun
import proofs.«107505_j54090818126503_1_alg».proof.Proof.EdgeNet
import proofs.«107505_j54090818126503_1_alg».proof.Proof.LibHostDense

noncomputable section

namespace Cert.ReferenceIdeal.RefValue

open Cert.ReferenceIdeal Cert.ReferenceIdeal.Gen Cert.ReferenceIdeal.RefRun Idealize.ShloMosaic Idealize.ShloMosaic.ValueIdx
open Cert.EdgeNet Cert.LeakyLayer Cert.HostDense Cert.ColsMatmul

/-- The three products' dimension records are "rows against columns". -/
theorem dims1 : (dot_S1600000x96_S96x64_S1600000x64_1_0_0_1_n_n : DotDims S1600000x96 S96x64 S1600000x64)
    = colsDims dot_S1600000x96_S96x64_S1600000x64_1_0_0_1_n_n_wf := rfl
theorem dims2 : (dot_S1600000x64_S64x64_S1600000x64_1_0_0_1_n_n : DotDims S1600000x64 S64x64 S1600000x64)
    = colsDims dot_S1600000x64_S64x64_S1600000x64_1_0_0_1_n_n_wf := rfl
theorem dims3 : (dot_S1600000x64_S64x32_S1600000x32_1_0_0_1_n_n : DotDims S1600000x64 S64x32 S1600000x32)
    = colsDims dot_S1600000x64_S64x32_S1600000x32_1_0_0_1_n_n_wf := rfl

/-- The three arrays laid side by side, at (r, q): the row of 96 made of the three rows r. -/
theorem cat_apply (a1 a2 bd : S1600000x32.Idx → EReal) (r : Fin 1600000) (q : Fin 96) :
    concatenate S1600000x96 1 [⟨S1600000x32, a1⟩, ⟨S1600000x32, a2⟩, ⟨S1600000x32, bd⟩]
        concatenates_S1600000x32_S1600000x32_S1600000x32_S1600000x96_d1 (ix2 r q)
      = cat3 (fun k => a1 (ix2 r k)) (fun k => a2 (ix2 r k)) (fun k => bd (ix2 r k)) q := by
  have hq : q.val < 96 := q.isLt
  unfold cat3
  by_cases h : q.val < 32
  · rw [dif_pos h]
    exact concatenate_apply_piece (t := S1600000x96) (1 : Fin 2) [⟨S1600000x32, a1⟩, ⟨S1600000x32, a2⟩, ⟨S1600000x32, bd⟩] concatenates_S1600000x32_S1600000x32_S1600000x32_S1600000x96_d1 (ix2 r q) 0 (by show (0 : ℕ) < 3; omega) S1600000x32 a1 rfl rfl 0 rfl (ix2 r ⟨q.val, h⟩)
      (fun b hb => by match b with | ⟨0, _⟩ => rfl | ⟨1, _⟩ => exact absurd rfl hb)
      (by show 0 + q.val = q.val; omega)
  · rw [dif_neg h]
    by_cases h2 : q.val < 64
    · rw [dif_pos h2]
      exact concatenate_apply_piece (t := S1600000x96) (1 : Fin 2) [⟨S1600000x32, a1⟩, ⟨S1600000x32, a2⟩, ⟨S1600000x32, bd⟩] concatenates_S1600000x32_S1600000x32_S1600000x32_S1600000x96_d1 (ix2 r q) 1 (by show (1 : ℕ) < 3; omega) S1600000x32 a2 rfl rfl 32 rfl
        (ix2 r ⟨q.val - 32, by omega⟩)
        (fun b hb => by match b with | ⟨0, _⟩ => rfl | ⟨1, _⟩ => exact absurd rfl hb)
        (by show 32 + (q.val - 32) = q.val; omega)
    · rw [dif_neg h2]
      exact concatenate_apply_piece (t := S1600000x96) (1 : Fin 2) [⟨S1600000x32, a1⟩, ⟨S1600000x32, a2⟩, ⟨S1600000x32, bd⟩] concatenates_S1600000x32_S1600000x32_S1600000x32_S1600000x96_d1 (ix2 r q) 2 (by show (2 : ℕ) < 3; omega) S1600000x32 bd rfl rfl 64 rfl
        (ix2 r ⟨q.val - 64, by omega⟩)
        (fun b hb => by match b with | ⟨0, _⟩ => rfl | ⟨1, _⟩ => exact absurd rfl hb)
        (by show 64 + (q.val - 64) = q.val; omega)

/-- The reference's result at (r, j) is the network of edge r, at j. -/
theorem refNet_apply (a1 a2 bd : S1600000x32.Idx → EReal) (W1 : S96x64.Idx → EReal) (b1 : S64.Idx → EReal)
    (W2 : S64x64.Idx → EReal) (b2 : S64.Idx → EReal) (W3 : S64x32.Idx → EReal) (b3 : S32.Idx → EReal)
    (r : Fin 1600000) (j : Fin 32) :
    refNet (F := Ideal) a1 a2 bd W1 b1 W2 b2 W3 b3 (ix2 r j) = net a1 a2 bd W1 b1 W2 b2 W3 b3 r j := by
  unfold refNet net edgeRow layer
  dsimp only
  rw [hostDense_apply dot_S1600000x64_S64x32_S1600000x32_1_0_0_1_n_n_wf _ dims3 _ W3 b3 bcast_S32_S1x32_1
    bcast_S1x32_S1600000x32_0_1 r j]
  refine congrArg₂ (· + ·) (Finset.sum_congr rfl fun k _ => congrArg₂ (· * ·) ?_ rfl) rfl
  rw [hostLeaky_apply]
  refine congrArg (leaky slopeW) ?_
  rw [hostDense_apply dot_S1600000x64_S64x64_S1600000x64_1_0_0_1_n_n_wf _ dims2 _ W2 b2 bcast_S64_S1x64_1
    bcast_S1x64_S1600000x64_0_1 r k]
  refine congrArg₂ (· + ·) (Finset.sum_congr rfl fun q _ => congrArg₂ (· * ·) ?_ rfl) rfl
  rw [hostLeaky_apply]
  refine congrArg (leaky slopeW) ?_
  rw [hostDense_apply dot_S1600000x96_S96x64_S1600000x64_1_0_0_1_n_n_wf _ dims1 _ W1 b1 bcast_S64_S1x64_1
    bcast_S1x64_S1600000x64_0_1 r q]
  refine congrArg₂ (· + ·) (Finset.sum_congr rfl fun q' _ => congrArg₂ (· * ·) ?_ rfl) rfl
  exact cat_apply a1 a2 bd r q'

/-- As arrays: the reference's result is the network array. -/
theorem refNet_eq (a1 a2 bd : S1600000x32.Idx → EReal) (W1 : S96x64.Idx → EReal) (b1 : S64.Idx → EReal)
    (W2 : S64x64.Idx → EReal) (b2 : S64.Idx → EReal) (W3 : S64x32.Idx → EReal) (b3 : S32.Idx → EReal) :
    refNet (F := Ideal) a1 a2 bd W1 b1 W2 b2 W3 b3 = netArr a1 a2 bd W1 b1 W2 b2 W3 b3 := by
  funext i
  rw [eq_ix2 i]
  exact refNet_apply a1 a2 bd W1 b1 W2 b2 W3 b3 (i 0) (i 1)

end Cert.ReferenceIdeal.RefValue

end
-- ==== Proof.lean ====
/-
  A gather of atom features, a concatenation and a three-layer network over 1.6 million edges: the kernel against its
  reference, on the extended reals.

  Both programs gather, for each of the 1600000 edges, the 32 features of its two end atoms from the 50000-row atom table
  (negative row numbers wrapped, out-of-range ones filled), and run a dense network 96 → 64 → 64 → 32 with a leaky
  rectifier of slope the float nearest 11/48 after the first two layers. The reference lays the three rows of 32 end to
  end and multiplies the row of 96 into the 96 by 64 weights. The kernel works on blocks of 5000 edges: it multiplies
  each of the three rows into its own 32 rows of the weights and adds the three products. A sum over 96 terms is the
  sum of its three stretches of 32 — associativity and commutativity of addition only, valid for every extended real —
  so the two first layers agree, and the rest of the network is the same on both sides; the changes of float format in
  the kernel are the identity on the extended reals. No finiteness of the inputs is used: the precondition is never
  opened.

  The kernel's 320 blocks of 5000 rows cover the result array, so its result is the network array of the arguments; the
  reference's result is read operation by operation as the same array. The gathers are the same function of the same
  arguments in both programs and are compared as they stand. The idealization rewrote nothing, so the kernel's
  idealized program is its own text read on the extended reals.
-/
import proofs.«107505_j54090818126503_1_alg».proof.Defs
import proofs.«107505_j54090818126503_1_alg».proof.Proof.Gen.Kernel
import proofs.«107505_j54090818126503_1_alg».proof.Proof.Gen.Kernel.Skeleton
import proofs.«107505_j54090818126503_1_alg».proof.Proof.Gen.Kernel.Launch
import proofs.«107505_j54090818126503_1_alg».proof.Proof.Gen.Kernel.Points
import proofs.«107505_j54090818126503_1_alg».proof.Proof.Gen.Kernel.Frame
import proofs.«107505_j54090818126503_1_alg».proof.Proof.Gen.KernelIdeal
import proofs.«107505_j54090818126503_1_alg».proof.Proof.Gen.KernelIdeal.Skeleton
import proofs.«107505_j54090818126503_1_alg».proof.Proof.Gen.KernelIdeal.Launch
import proofs.«107505_j54090818126503_1_alg».proof.Proof.Gen.KernelIdeal.Points
import proofs.«107505_j54090818126503_1_alg».proof.Proof.Gen.KernelIdeal.Frame
import proofs.«107505_j54090818126503_1_alg».proof.Proof.Gen.KernelIdeal.Value
import proofs.«107505_j54090818126503_1_alg».proof.Proof.Gen.ReferenceIdeal
import proofs.«107505_j54090818126503_1_alg».proof.Proof.Gen.Pre_finite_inputs
import proofs.«107505_j54090818126503_1_alg».proof.Proof.KernelFinal
import proofs.«107505_j54090818126503_1_alg».proof.Proof.RefStages
import proofs.«107505_j54090818126503_1_alg».proof.Proof.RefValue
import Idealize.ShloMosaic.Adequacy
import Idealize.ShloMosaic.Init

noncomputable section

namespace Cert.Proof

open Idealize.ShloMosaic Idealize.ShloMosaic.TcCoe Idealize.SL.Sem

/-- The two programs' gathers have the same dimension numbers. -/
theorem gather_dims_eq :
    Cert.ReferenceIdeal.gather_S50000x32_S1600000x1_S1600000x32_1_0_n_n_0_1_132
      = Cert.KernelIdeal.gather_S50000x32_S1600000x1_S1600000x32_1_0_n_n_0_1_132 := rfl

/-- So the two programs' gathers of atom rows are one function. -/
theorem take_eq (atoms : (⟨2, ![50000, 32]⟩ : Shape).Idx → EReal) (idx : IVec ⟨1, ![1600000]⟩ 32) :
    Cert.ReferenceIdeal.RefRun.take (F := Ideal) atoms idx = Cert.KernelIdeal.HostSide.take (F := Ideal) atoms idx :=
  congrArg (fun g => Cert.EdgeNet.takeRows (F := Ideal) _ _ _ _ _ _ _ _ _ g atoms idx) gather_dims_eq

theorem frame_k : Cert.frame_Kernel := fun m ρ _ => Cert.Kernel.Gen.frame m ρ

theorem frame_ki : Cert.frame_KernelIdeal := fun m ρ _ => Cert.KernelIdeal.Gen.frame m ρ

/-- The reference runs to the end and leaves its arguments: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From arguments that agree, the kernel's result array and the reference's are the network array of the arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9, Cert.ReferenceIdeal.RefValue.refNet_eq, take_eq, take_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
